-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x8192 : Shape := ⟨2, ![32, 8192]⟩
abbrev S32x64x8192 : Shape := ⟨3, ![32, 64, 8192]⟩
abbrev S_ : Shape := ⟨0, ![]⟩

class Facts : Prop where
  bcast_S_S32x8192 : S_.BroadcastsInDim S32x8192 (![] : Fin 0 → Fin S32x8192.rank)
  reducesTo_S32x8192_S_d0_1 : S32x8192.ReducesTo [0, 1] S_
  h_S_ : 0 < S_.numel
  bcast_S_S32x64x8192 : S_.BroadcastsInDim S32x64x8192 (![] : Fin 0 → Fin S32x64x8192.rank)
  reducesTo_S32x64x8192_S_d0_1_2 : S32x64x8192.ReducesTo [0, 1, 2] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S32x8192 .f32) (main_arg1 : FVec F S32x64x8192 .f32) : IVec S_ 1 :=
  let main_v0 : FVec F S32x8192 .f32 := Host.absf main_arg0
  let main_cst : FVec F S_ .f32 := constant S_ .f32 0x7F800000#32
  let main_v1 : FVec F S32x8192 .f32 := broadcastInDim S32x8192 ![] bcast_S_S32x8192 main_cst
  let main_v2 : IVec S32x8192 1 := cmpf .olt main_v0 main_v1
  let main_c : IVec S_ 1 := constantI S_ 1 1#1
  let main_v3 : IVec S_ 1 := (fun x v => Host.reduce IntOp.andi x v reducesTo_S32x8192_S_d0_1 h_S_) main_v2 main_c
  let main_v4 : FVec F S32x64x8192 .f32 := Host.absf main_arg1
  let main_cst_0 : FVec F S_ .f32 := constant S_ .f32 0x7F800000#32
  let main_v5 : FVec F S32x64x8192 .f32 := broadcastInDim S32x64x8192 ![] bcast_S_S32x64x8192 main_cst_0
  let main_v6 : IVec S32x64x8192 1 := cmpf .olt main_v4 main_v5
  let main_c_1 : IVec S_ 1 := constantI S_ 1 1#1
  let main_v7 : IVec S_ 1 := (fun x v => Host.reduce IntOp.andi x v reducesTo_S32x64x8192_S_d0_1_2 h_S_) main_v6 main_c_1
  let main_v8 : IVec S_ 1 := andi main_v3 main_v7
  let main_cst_2 : FVec F S_ .f32 := constant S_ .f32 0x00000000#32
  let main_v9 : FVec F S32x64x8192 .f32 := broadcastInDim S32x64x8192 ![] bcast_S_S32x64x8192 main_cst_2
  let main_v10 : IVec S32x64x8192 1 := cmpf .ogt main_arg1 main_v9
  let main_c_3 : IVec S_ 1 := constantI S_ 1 1#1
  let main_v11 : IVec S_ 1 := (fun x v => Host.reduce IntOp.andi x v reducesTo_S32x64x8192_S_d0_1_2 h_S_) main_v10 main_c_3
  let main_v12 : IVec S_ 1 := andi main_v8 main_v11
  let main_cst_4 : FVec F S_ .f32 := constant S_ .f32 0x3F800000#32
  let main_v13 : FVec F S32x64x8192 .f32 := broadcastInDim S32x64x8192 ![] bcast_S_S32x64x8192 main_cst_4
  let main_v14 : IVec S32x64x8192 1 := cmpf .olt main_arg1 main_v13
  let main_c_5 : IVec S_ 1 := constantI S_ 1 1#1
  let main_v15 : IVec S_ 1 := (fun x v => Host.reduce IntOp.andi x v reducesTo_S32x64x8192_S_d0_1_2 h_S_) main_v14 main_c_5
  fn_part1 (F := F) main_v12 main_v15
-- ==== Kernel.lean ====
abbrev S32x8192 : Shape := ⟨2, ![32, 8192]⟩
abbrev S32x64x8192 : Shape := ⟨3, ![32, 64, 8192]⟩
abbrev S32x1x8192 : Shape := ⟨3, ![32, 1, 8192]⟩
abbrev S4x1x8192 : Shape := ⟨3, ![4, 1, 8192]⟩
abbrev S4x64x8192 : Shape := ⟨3, ![4, 64, 8192]⟩
abbrev S256x8192 : Shape := ⟨2, ![256, 8192]⟩
abbrev S1x1x8192 : Shape := ⟨3, ![1, 1, 8192]⟩
abbrev S1x8192 : Shape := ⟨2, ![1, 8192]⟩
abbrev S1x64x8192 : Shape := ⟨3, ![1, 64, 8192]⟩
abbrev S64x8192 : Shape := ⟨2, ![64, 8192]⟩
abbrev S64 : Shape := ⟨1, ![64]⟩
abbrev S64x1 : Shape := ⟨2, ![64, 1]⟩
abbrev S8192 : Shape := ⟨1, ![8192]⟩

abbrev nBuf : Space → Nat
  | .hbm => 5
  | .vmem => 7
  | .smem => 0
  | _ => 0

abbrev bufTy : (tb : Table) → Fin (tcTables nBuf tb) → BufTy
  | .hbm, ⟨0, _⟩ => ⟨S32x8192, .f32⟩
  | .hbm, ⟨1, _⟩ => ⟨S32x64x8192, .f32⟩
  | .hbm, ⟨2, _⟩ => ⟨S32x1x8192, .f32⟩
  | .hbm, ⟨3, _⟩ => ⟨S32x1x8192, .f32⟩
  | .hbm, ⟨4, _⟩ => ⟨S32x8192, .f32⟩
  | .local _ .vmem, ⟨0, _⟩ => ⟨S4x1x8192, .f32⟩
  | .local _ .vmem, ⟨1, _⟩ => ⟨S4x1x8192, .f32⟩
  | .local _ .vmem, ⟨2, _⟩ => ⟨S4x64x8192, .f32⟩
  | .local _ .vmem, ⟨3, _⟩ => ⟨S4x64x8192, .f32⟩
  | .local _ .vmem, ⟨4, _⟩ => ⟨S4x1x8192, .f32⟩
  | .local _ .vmem, ⟨5, _⟩ => ⟨S4x1x8192, .f32⟩
  | .local _ .vmem, ⟨6, _⟩ => ⟨S256x8192, .f32⟩
  | _, _ => ⟨S32x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x1x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x64x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x1x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S32x8192_S32x1x8192 : S32x8192.ShapeCasts S32x1x8192
  inb_S4x1x8192_S1x1x8192_0_0_0 : ∀ a, (![0, 0, 0] : Fin 3 → Nat) a + S1x1x8192.size a ≤ S4x1x8192.size a
  h_S1x1x8192 : 0 < S1x1x8192.numel
  shapeCasts_S1x1x8192_S1x8192 : S1x1x8192.ShapeCasts S1x8192
  inb_S4x64x8192_S1x64x8192_0_0_0 : ∀ a, (![0, 0, 0] : Fin 3 → Nat) a + S1x64x8192.size a ≤ S4x64x8192.size a
  h_S1x64x8192 : 0 < S1x64x8192.numel
  shapeCasts_S1x64x8192_S64x8192 : S1x64x8192.ShapeCasts S64x8192
  broadcasts_S1x8192_S64x8192 : S1x8192.Broadcasts S64x8192
  inb_S256x8192_S64x8192_0_0 : ∀ a, (![0, 0] : Fin 2 → Nat) a + S64x8192.size a ≤ S256x8192.size a
  h_S64x8192 : 0 < S64x8192.numel
  shapeCasts_S64x8192_S64x8192 : S64x8192.ShapeCasts S64x8192
  reduces_S64x8192_S64 : S64x8192.Reduces [1] S64
  shapeCasts_S64_S64x1 : S64.ShapeCasts S64x1
  broadcasts_S64x1_S64x8192 : S64x1.Broadcasts S64x8192
  reduces_S64x8192_S8192 : S64x8192.Reduces [0] S8192
  shapeCasts_S8192_S1x8192 : S8192.ShapeCasts S1x8192
  shapeCasts_S1x8192_S1x1x8192 : S1x8192.ShapeCasts S1x1x8192
  inb_S4x1x8192_S1x1x8192_1_0_0 : ∀ a, (![1, 0, 0] : Fin 3 → Nat) a + S1x1x8192.size a ≤ S4x1x8192.size a
  inb_S4x64x8192_S1x64x8192_1_0_0 : ∀ a, (![1, 0, 0] : Fin 3 → Nat) a + S1x64x8192.size a ≤ S4x64x8192.size a
  inb_S256x8192_S64x8192_64_0 : ∀ a, (![64, 0] : Fin 2 → Nat) a + S64x8192.size a ≤ S256x8192.size a
  inb_S4x1x8192_S1x1x8192_2_0_0 : ∀ a, (![2, 0, 0] : Fin 3 → Nat) a + S1x1x8192.size a ≤ S4x1x8192.size a
  inb_S4x64x8192_S1x64x8192_2_0_0 : ∀ a, (![2, 0, 0] : Fin 3 → Nat) a + S1x64x8192.size a ≤ S4x64x8192.size a
  inb_S256x8192_S64x8192_128_0 : ∀ a, (![128, 0] : Fin 2 → Nat) a + S64x8192.size a ≤ S256x8192.size a
  inb_S4x1x8192_S1x1x8192_3_0_0 : ∀ a, (![3, 0, 0] : Fin 3 → Nat) a + S1x1x8192.size a ≤ S4x1x8192.size a
  inb_S4x64x8192_S1x64x8192_3_0_0 : ∀ a, (![3, 0, 0] : Fin 3 → Nat) a + S1x64x8192.size a ≤ S4x64x8192.size a
  inb_S256x8192_S64x8192_192_0 : ∀ a, (![192, 0] : Fin 2 → Nat) a + S64x8192.size a ≤ S256x8192.size a
  shapeCasts_S32x1x8192_S32x8192 : S32x1x8192.ShapeCasts S32x8192
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x1x8192.size a ≤ S32x1x8192.size a
  hwx0_0 : ∀ i : grid0.Coords, EltTy.bits .f32 = 32 ∨ (Rect.block (s := S32x1x8192) S4x1x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x64x8192.size a ≤ S32x64x8192.size a
  hwx0_1 : ∀ i : grid0.Coords, EltTy.bits .f32 = 32 ∨ (Rect.block (s := S32x64x8192) S4x64x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x1x8192.size a ≤ S32x1x8192.size a
  hwx0_2 : ∀ i : grid0.Coords, EltTy.bits .f32 = 32 ∨ (Rect.block (s := S32x1x8192) S4x1x8192.size (cc0_transform_2 i) (hinb0_2 i)).WholeWords (EltTy.packing .f32)

variable [Facts₀]

abbrev win0_0 : Pipeline.Window sig grid0 :=
  Pipeline.Window.ofSpec (Memref.whole main_v0) S4x1x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x64x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S4x1x8192.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x8192 : Shape := ⟨2, ![32, 8192]⟩
abbrev S32x64x8192 : Shape := ⟨3, ![32, 64, 8192]⟩
abbrev S32x1x8192 : Shape := ⟨3, ![32, 1, 8192]⟩
abbrev S_ : Shape := ⟨0, ![]⟩
abbrev S32x64 : Shape := ⟨2, ![32, 64]⟩
abbrev S32x64x1 : Shape := ⟨3, ![32, 64, 1]⟩

abbrev nBuf : Space → Nat
  | .hbm => 28
  | .vmem => 0
  | .smem => 0
  | _ => 0

abbrev bufTy : (tb : Table) → Fin (tcTables nBuf tb) → BufTy
  | .hbm, ⟨0, _⟩ => ⟨S32x8192, .f32⟩
  | .hbm, ⟨1, _⟩ => ⟨S32x64x8192, .f32⟩
  | .hbm, ⟨2, _⟩ => ⟨S32x1x8192, .f32⟩
  | .hbm, ⟨3, _⟩ => ⟨S32x64x8192, .f32⟩
  | .hbm, ⟨4, _⟩ => ⟨S32x64x8192, .f32⟩
  | .hbm, ⟨5, _⟩ => ⟨S32x64x8192, .f32⟩
  | .hbm, ⟨6, _⟩ => ⟨S32x64x8192, .f32⟩
  | .hbm, ⟨7, _⟩ => ⟨S32x64x8192, .f32⟩
  | .hbm, ⟨8, _⟩ => ⟨S32x64x8192, .f32⟩
  | .hbm, ⟨9, _⟩ => ⟨S_, .f32⟩
  | .hbm, ⟨10, _⟩ => ⟨S32x64x8192, .f32⟩
  | .hbm, ⟨11, _⟩ => ⟨S32x64x8192, .f32⟩
  | .hbm, ⟨12, _⟩ => ⟨S_, .f32⟩
  | .hbm, ⟨13, _⟩ => ⟨S32x64, .f32⟩
  | .hbm, ⟨14, _⟩ => ⟨S_, .f32⟩
  | .hbm, ⟨15, _⟩ => ⟨S32x64, .f32⟩
  | .hbm, ⟨16, _⟩ => ⟨S32x64, .f32⟩
  | .hbm, ⟨17, _⟩ => ⟨S32x64x1, .f32⟩
  | .hbm, ⟨18, _⟩ => ⟨S32x64x8192, .f32⟩
  | .hbm, ⟨19, _⟩ => ⟨S32x64x8192, .f32⟩
  | .hbm, ⟨20, _⟩ => ⟨S32x64x8192, .f32⟩
  | .hbm, ⟨21, _⟩ => ⟨S_, .f32⟩
  | .hbm, ⟨22, _⟩ => ⟨S32x64, .f32⟩
  | .hbm, ⟨23, _⟩ => ⟨S32x64x1, .f32⟩
  | .hbm, ⟨24, _⟩ => ⟨S32x64x8192, .f32⟩
  | .hbm, ⟨25, _⟩ => ⟨S32x64x8192, .f32⟩
  | .hbm, ⟨26, _⟩ => ⟨S_, .f32⟩
  | .hbm, ⟨27, _⟩ => ⟨S32x8192, .f32⟩
  | _, _ => ⟨S32x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩

abbrev nD : Nat := 1
abbrev τ : Topo := Topo.v7x

variable {F : FTy → Type} [FloatOps F]

class Facts₀ : Prop where
  bcast_S32x8192_S32x1x8192_0_2 : S32x8192.BroadcastsInDim S32x1x8192 (![0, 2] : Fin 2 → Fin S32x1x8192.rank)
  bcast_S32x1x8192_S32x64x8192_0_1_2 : S32x1x8192.BroadcastsInDim S32x64x8192 (![0, 1, 2] : Fin 3 → Fin S32x64x8192.rank)
  bcast_S_S32x64x8192 : S_.BroadcastsInDim S32x64x8192 (![] : Fin 0 → Fin S32x64x8192.rank)
  reducesTo_S32x64x8192_S32x64_d2 : S32x64x8192.ReducesTo [2] S32x64
  h_S_ : 0 < S_.numel
  bcast_S_S32x64 : S_.BroadcastsInDim S32x64 (![] : Fin 0 → Fin S32x64.rank)
  bcast_S32x64_S32x64x1_0_1 : S32x64.BroadcastsInDim S32x64x1 (![0, 1] : Fin 2 → Fin S32x64x1.rank)
  bcast_S32x64x1_S32x64x8192_0_1_2 : S32x64x1.BroadcastsInDim S32x64x8192 (![0, 1, 2] : Fin 3 → Fin S32x64x8192.rank)
  reducesTo_S32x64x8192_S32x8192_d1 : S32x64x8192.ReducesTo [1] S32x8192

variable [Facts₀]

class Facts : Prop extends Facts₀ where

variable [Facts]
-- ==== Proof.RefRead.lean ====
/-
  The reference's run read one operation at a time: this module only gathers the generated run and
  read-at-an-index lemmas of the reference so that later modules can cite them.
-/
import proofs.«116456_g50568944943757_cont_8to1c4_257_25_alg».proof.Proof.Gen.ReferenceIdeal.Run
import proofs.«116456_g50568944943757_cont_8to1c4_257_25_alg».proof.Proof.Gen.ReferenceIdeal.Read
-- ==== Proof.LibDense.lean ====
/-
  General facts, at the exact instance (floats as extended reals), about the operations a dense layer and a row softmax
  are made of, each read at an index written by its coordinates:
  a matrix product into a zero accumulator is the sum over the contracted axis of the products of the row's and the
  column's entries; a vector cast to one row and broadcast down the rows is the vector at the column; a vector cast
  to one column and broadcast along the rows is the vector at the row; a sum and a maximum over the second axis of a
  matrix are the sum and the maximum of the row's entries.
-/
import Idealize.ShloMosaic.PureOps.Ideal.Laws
import Idealize.ShloMosaic.Lib.ValueIdx
import Idealize.ShloMosaic.Lib.ValueLayout
import Idealize.ShloMosaic.Lib.Pipeline.Value

noncomputable section

namespace Cert.LibDense

open Idealize.ShloMosaic Idealize.ShloMosaic.ValueIdx

variable {α : Type} {M K N : Nat}

/-- A matrix product of an [M, K] by a [K, N] matrix into the zero accumulator, read at (p, q): the sum over the
    contracted coordinate k of x(p, k) · w(k, q). The four hypotheses say which operand coordinate each of the
    product's index maps takes from the output index and which from the contraction index. -/
theorem matmul_zero_rc {φ₁ φ₂ : FTy} (D : DotDims ⟨2, ![M, K]⟩ ⟨2, ![K, N]⟩ ⟨2, ![M, N]⟩) (hr : D.contr.rank = 1)
    (hs : D.contr.size ⟨0, by omega⟩ = K)
    (hl0 : ∀ (i : (⟨2, ![M, N]⟩ : Shape).Idx) (c : D.contr.Idx), (D.lhsIdx i c 0).val = (i 0).val)
    (hl1 : ∀ (i : (⟨2, ![M, N]⟩ : Shape).Idx) (c : D.contr.Idx), (D.lhsIdx i c 1).val = (c ⟨0, by omega⟩).val)
    (hr0 : ∀ (i : (⟨2, ![M, N]⟩ : Shape).Idx) (c : D.contr.Idx), (D.rhsIdx i c 0).val = (c ⟨0, by omega⟩).val)
    (hr1 : ∀ (i : (⟨2, ![M, N]⟩ : Shape).Idx) (c : D.contr.Idx), (D.rhsIdx i c 1).val = (i 1).val)
    (prec : Option ContractPrecision)
    (x : FVec Ideal ⟨2, ![M, K]⟩ φ₁) (w : FVec Ideal ⟨2, ![K, N]⟩ φ₂) (p : Fin M) (q : Fin N) :
    matmul D prec x w (constant ⟨2, ![M, N]⟩ .f32 0x00000000#32) (ix2 p q) = ∑ k : Fin K, x (ix2 p k) * w (ix2 k q) := by
  refine (Ideal.matmul_constant_zero_apply D prec x w (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

/-- An [N] vector cast to one row [1, N] and broadcast to [M, N] reads, at (p, q), the vector at q. -/
theorem rowBroadcast_rc (b : (⟨1, ![N]⟩ : Shape).Idx → α) (h1 : (⟨1, ![N]⟩ : Shape).ShapeCasts ⟨2, ![1, N]⟩)
    (h2 : (⟨2, ![1, N]⟩ : Shape).Broadcasts ⟨2, ![M, N]⟩) (p : Fin M) (q : Fin N) :
    broadcastTo ⟨2, ![M, N]⟩ (shapeCast ⟨2, ![1, N]⟩ b h1) h2 (ix2 p q) = b (ix1 q) :=
  (broadcastTo_1b_ab_apply _ h2 p q).trans (shapeCast_a_1a_apply b h1 0 q)

/-- An [M] vector cast to one column [M, 1] reads, at (p, u), the vector at p. -/
theorem shapeCast_a_a1_apply (v : (⟨1, ![M]⟩ : Shape).Idx → α) (h : (⟨1, ![M]⟩ : Shape).ShapeCasts ⟨2, ![M, 1]⟩)
    (p : Fin M) (u : Fin 1) : shapeCast ⟨2, ![M, 1]⟩ v h (ix2 p u) = v (ix1 p) :=
  shapeCast_apply v h _ _ (by
    have hu : u.val = 0 := by omega
    rw [Shape.rowMajor_val_two, Shape.rowMajor_val_one]
    show p.val = p.val * 1 + u.val
    omega)

/-- An [M, 1] column cast to the [M] vector reads, at p, the column at (p, 0). -/
theorem shapeCast_a1_a_apply (v : (⟨2, ![M, 1]⟩ : Shape).Idx → α) (h : (⟨2, ![M, 1]⟩ : Shape).ShapeCasts ⟨1, ![M]⟩)
    (p : Fin M) : shapeCast ⟨1, ![M]⟩ v h (ix1 p) = v (ix2 p (0 : Fin 1)) :=
  shapeCast_apply v h _ _ (by
    rw [Shape.rowMajor_val_two, Shape.rowMajor_val_one]
    show p.val * 1 + 0 = p.val
    omega)

/-- An [M, 1] column broadcast along the rows to [M, N] reads, at (p, q), the column at (p, 0). -/
theorem broadcastTo_a1_ab_apply (v : (⟨2, ![M, 1]⟩ : Shape).Idx → α) (h : (⟨2, ![M, 1]⟩ : Shape).Broadcasts ⟨2, ![M, N]⟩)
    (p : Fin M) (q : Fin N) : broadcastTo ⟨2, ![M, N]⟩ v h (ix2 p q) = v (ix2 p (0 : Fin 1)) := by
  refine broadcastTo_apply v h (ix2 p q) (ix2 p (0 : Fin 1)) fun ax => ?_
  match ax with
  | ⟨0, _⟩ =>
    show p.val = if M = 1 then 0 else p.val
    split
    · have := p.isLt; omega
    · rfl
  | ⟨1, _⟩ => rfl

/-- An [M] vector cast to one column and broadcast along the rows to [M, N] reads, at (p, q), the vector at p. -/
theorem colBroadcast_rc (v : (⟨1, ![M]⟩ : Shape).Idx → α) (h1 : (⟨1, ![M]⟩ : Shape).ShapeCasts ⟨2, ![M, 1]⟩)
    (h2 : (⟨2, ![M, 1]⟩ : Shape).Broadcasts ⟨2, ![M, N]⟩) (p : Fin M) (q : Fin N) :
    broadcastTo ⟨2, ![M, N]⟩ (shapeCast ⟨2, ![M, 1]⟩ v h1) h2 (ix2 p q) = v (ix1 p) :=
  (broadcastTo_a1_ab_apply _ h2 p q).trans (shapeCast_a_a1_apply v h1 p 0)

/-- The index of an [M, N] matrix that drops to p when the second axis is reduced, with k put on that axis, is (p, k). -/
theorem lift_row (h : (⟨2, ![M, N]⟩ : Shape).Reduces [1] ⟨1, ![M]⟩) (p : Fin M) (k : Fin N) :
    h.lift (ix1 p) k = ix2 p k := by
  funext a
  apply Fin.ext
  match a with
  | ⟨0, _⟩ => rfl
  | ⟨1, _⟩ => rfl

/-- The sum over the second axis of an [M, N] matrix, read at row p: the sum of the row's entries. -/
theorem rowSum_apply (src : FVec Ideal ⟨2, ![M, N]⟩ .f32) (h : (⟨2, ![M, N]⟩ : Shape).Reduces [1] ⟨1, ![M]⟩)
    (hφ : FKind.Formats .f32) (hacc : (0x00000000#32 : BitVec 32) = 0x00000000#32) (p : Fin M) :
    multiReduction .add [1] ⟨1, ![M]⟩ src 0x00000000#32 h hφ hacc (ix1 p) = ∑ k : Fin N, src (ix2 p k) := by
  refine (Ideal.multiReduction_add_single src 0x00000000#32 h hφ hacc (ix1 p)).trans ?_
  exact Finset.sum_congr rfl fun k _ => congrArg src (lift_row h p k)

/-- The maximum over the second axis of an [M, N] matrix, read at row p: the fold of max, from minus infinity's
    pattern, over the row's entries. -/
theorem rowMax_apply (src : FVec Ideal ⟨2, ![M, N]⟩ .f32) (h : (⟨2, ![M, N]⟩ : Shape).Reduces [1] ⟨1, ![M]⟩)
    (hφ : FKind.Formats .f32) (hacc : (0xFF800000#32 : BitVec 32) = 0xFF800000#32) (p : Fin M) :
    multiReduction .maximumf [1] ⟨1, ![M]⟩ src 0xFF800000#32 h hφ hacc (ix1 p)
      = (Finset.univ : Finset (Fin N)).fold max (Ideal.ofBits .f32 0xFF800000#32) (fun k => src (ix2 p k)) := by
  refine (Ideal.multiReduction_maximumf_single src 0xFF800000#32 h hφ hacc (ix1 p)).trans ?_
  have e : (src ∘ h.lift (ix1 p)) = fun k => src (ix2 p k) := funext fun k => congrArg src (lift_row h p k)
  rw [e]
  rfl

/-- The host's reduction by maximum over the second axis of an [M, N] matrix, read at row p: the same fold, from the
    initial value's one element. -/
theorem hostRowMax_apply {u : Shape} (x : (⟨2, ![M, N]⟩ : Shape).Idx → EReal) (init : u.Idx → EReal)
    (h' : (⟨2, ![M, N]⟩ : Shape).ReducesTo [1] ⟨1, ![M]⟩) (h : (⟨2, ![M, N]⟩ : Shape).Reduces [1] ⟨1, ![M]⟩)
    (hu : 0 < u.numel) (p : Fin M) :
    Host.reduce (FloatOps.maximumf (F := Ideal) (φ := .f32)) x init h' hu (ix1 p)
      = (Finset.univ : Finset (Fin N)).fold max (init (Shape.Idx.first hu)) (fun k => x (ix2 p k)) := by
  refine (Host.reduce_eq_fold_single _ x init h' h hu (ix1 p)).trans ?_
  have e : (x ∘ h.lift (ix1 p)) = fun k => x (ix2 p k) := funext fun k => congrArg x (lift_row h p k)
  rw [e]
  rfl

/-! ## What a dense layer and a row softmax compute -/

/-- The f32 zero word's value (the rectifier's threshold and the sums' initial value). -/
abbrev zeroWord : EReal := Ideal.ofBits .f32 0x00000000#32

/-- Minus infinity's f32 word's value (the maximum's initial value). -/
abbrev negInfWord : EReal := Ideal.ofBits .f32 0xFF800000#32

/-- An affine map's entry: at (r, j), the sum over k of x(r, k) · w(k, j), plus b(j). -/
def affine (x : (⟨2, ![M, K]⟩ : Shape).Idx → EReal) (w : (⟨2, ![K, N]⟩ : Shape).Idx → EReal)
    (b : (⟨1, ![N]⟩ : Shape).Idx → EReal) : (⟨2, ![M, N]⟩ : Shape).Idx → EReal :=
  fun i => ∑ k : Fin K, x (ix2 (n0 := M) (n1 := K) ⟨(i 0).val, (i 0).isLt⟩ k) * w (ix2 (n0 := K) (n1 := N) k ⟨(i 1).val, (i 1).isLt⟩)
    + b (ix1 (n := N) ⟨(i 1).val, (i 1).isLt⟩)

theorem affine_apply (x : (⟨2, ![M, K]⟩ : Shape).Idx → EReal) (w : (⟨2, ![K, N]⟩ : Shape).Idx → EReal)
    (b : (⟨1, ![N]⟩ : Shape).Idx → EReal) (p : Fin M) (q : Fin N) :
    affine x w b (ix2 p q) = ∑ k : Fin K, x (ix2 p k) * w (ix2 k q) + b (ix1 q) := rfl

/-- One dense layer with the rectifier: the affine map's entry or the zero word's value, whichever is larger. -/
def layer (x : (⟨2, ![M, K]⟩ : Shape).Idx → EReal) (w : (⟨2, ![K, N]⟩ : Shape).Idx → EReal)
    (b : (⟨1, ![N]⟩ : Shape).Idx → EReal) : (⟨2, ![M, N]⟩ : Shape).Idx → EReal :=
  fun i => max (affine x w b i) zeroWord

theorem layer_apply (x : (⟨2, ![M, K]⟩ : Shape).Idx → EReal) (w : (⟨2, ![K, N]⟩ : Shape).Idx → EReal)
    (b : (⟨1, ![N]⟩ : Shape).Idx → EReal) (p : Fin M) (q : Fin N) :
    layer x w b (ix2 p q) = max (∑ k : Fin K, x (ix2 p k) * w (ix2 k q) + b (ix1 q)) zeroWord := rfl

/-- A row's largest logit as both programs take it: the fold of max from minus infinity's word over the row, once more
    against that word. -/
def rowTop (l : Fin N → EReal) : EReal := max negInfWord ((Finset.univ : Finset (Fin N)).fold max negInfWord l)

/-- A softmax row as both programs compute it: each logit less the row's largest, exponentiated, over the sum of those
    exponentials (the exact quotient of extended reals). -/
def softmaxRow (l : Fin N → EReal) (v : Fin N) : EReal :=
  Ideal.div (Ideal.exp (l v - rowTop l)) (∑ u : Fin N, Ideal.exp (l u - rowTop l))

end Cert.LibDense

end
-- ==== Proof.LibColMax.lean ====
/-
  General facts, at the exact instance (floats as extended reals), about a maximum taken over the FIRST axis of a
  matrix: the index that drops to column q with k put on the first axis is (k, q), and the lane maximum over that
  axis read at column q is the fold of max, from the starting word's value, over the column's entries.
-/
import Idealize.ShloMosaic.PureOps.Ideal.Laws
import Idealize.ShloMosaic.Lib.ValueIdx

noncomputable section

namespace Cert.LibColMax

open Idealize.ShloMosaic Idealize.ShloMosaic.ValueIdx

variable {M N : Nat}

/-- The index of an [M, N] matrix that drops to q when the first axis is reduced, with k put on that axis, is (k, q). -/
theorem lift_col (h : (⟨2, ![M, N]⟩ : Shape).Reduces [0] ⟨1, ![N]⟩) (q : Fin N) (k : Fin M) :
    h.lift (ix1 q) k = ix2 k q := by
  funext a
  apply Fin.ext
  match a with
  | ⟨0, _⟩ => rfl
  | ⟨1, _⟩ => rfl

/-- The maximum over the first axis of an [M, N] matrix, read at column q: the fold of max, from minus infinity's
    pattern, over the column's entries. -/
theorem colMax_apply (src : FVec Ideal ⟨2, ![M, N]⟩ .f32) (h : (⟨2, ![M, N]⟩ : Shape).Reduces [0] ⟨1, ![N]⟩)
    (hφ : FKind.Formats .f32) (hacc : (0xFF800000#32 : BitVec 32) = 0xFF800000#32) (q : Fin N) :
    multiReduction .maximumf [0] ⟨1, ![N]⟩ src 0xFF800000#32 h hφ hacc (ix1 q)
      = (Finset.univ : Finset (Fin M)).fold max (Ideal.ofBits .f32 0xFF800000#32) (fun k => src (ix2 k q)) := by
  refine (Ideal.multiReduction_maximumf_single src 0xFF800000#32 h hφ hacc (ix1 q)).trans ?_
  have e : (src ∘ h.lift (ix1 q)) = fun k => src (ix2 k q) := funext fun k => congrArg src (lift_col h q k)
  rw [e]
  rfl

end Cert.LibColMax

end
-- ==== Proof.RowSpec.lean ====
/-
  One row of the Gumbel-softmax, in the two arrangements the two programs compute, as functions on the
  extended reals over an arbitrary finite index type `ι` (the positions `d` of the softmax axis).

  With `l d` the logit and `u d` the uniform draw at position `d`:
  * the kernel's arrangement: the weight `w d = (1 / (log (u d))²) · exp (2 · l d)` and the row entry
    `w d · (1 / ∑ d', w d')`;
  * the reference's arrangement: the noisy logit `n d = (−log (−log (u d)) + l d) / (1/2)`, the shift
    `M = max (−∞) (max over d of n d)`, and the row entry `exp (n d − M) / (0 + ∑ d', exp (n d' − M))`.
  The float literals stay as the bit patterns both programs spell (2.0, 1.0, 0.5, 0.0, −∞).
-/
import Idealize.ShloMosaic.PureOps.Ideal

noncomputable section

namespace Cert.GumbelRow

open Idealize.ShloMosaic

variable {ι : Type} [Fintype ι]

/-- The kernel's softmax numerator at position `d`: `(1 / (log u)²) · exp (2 · l)`. -/
def weight (l u : ι → EReal) (d : ι) : EReal :=
  Ideal.div (Ideal.ofBits .f32 0x3F800000#32) (Ideal.log (u d) * Ideal.log (u d))
    * Ideal.exp (Ideal.ofBits .f32 0x40000000#32 * l d)

/-- The kernel's row entry: the numerator times the reciprocal of the row's sum of numerators. -/
def ratio (l u : ι → EReal) (d : ι) : EReal :=
  weight l u d * Ideal.div (Ideal.ofBits .f32 0x3F800000#32) (∑ d', weight l u d')

/-- The reference's noisy logit at position `d`: `(−log (−log u) + l) / (1/2)`. -/
def noisy (l u : ι → EReal) (d : ι) : EReal :=
  Ideal.div (-(Ideal.log (-(Ideal.log (u d)))) + l d) (Ideal.ofBits .f32 0x3F000000#32)

/-- The reference's shift: the row's largest noisy logit, taken from `−∞` twice as the reference does. -/
def shift (l u : ι → EReal) : EReal :=
  max (Ideal.ofBits .f32 0xFF800000#32) (Finset.univ.fold max (Ideal.ofBits .f32 0xFF800000#32) (noisy l u))

/-- The reference's row entry: the shifted exponential over the sum of the shifted exponentials. -/
def softmax (l u : ι → EReal) (d : ι) : EReal :=
  Ideal.div (Ideal.exp (noisy l u d - shift l u))
    (Ideal.ofBits .f32 0x00000000#32 + ∑ d', Ideal.exp (noisy l u d' - shift l u))

end Cert.GumbelRow

end
-- ==== Proof.RowRead.lean ====
/-
  One batch row of the kernel's body, read at an index at the exact instance.

  The body handles four batch rows per grid point, each by the same operations: from the row's logits l (one row of
  8192) and its slab of uniform draws u (64 rows of 8192) it forms the weights w(k, d) = (1 / (log u(k, d))²) · exp (2 · l(d)),
  sums each row k of the weights over d, multiplies the weights (read back from the scratch buffer) by the reciprocal
  of their row's sum, and takes the maximum over k. So the row's result at position d is the maximum over k of the
  softmax row entry in the kernel's arrangement, `GumbelRow.ratio`.
-/
import proofs.«116456_g50568944943757_cont_8to1c4_257_25_alg».proof.Proof.Gen.KernelIdeal.Skeleton
import proofs.«116456_g50568944943757_cont_8to1c4_257_25_alg».proof.Proof.LibDense
import proofs.«116456_g50568944943757_cont_8to1c4_257_25_alg».proof.Proof.LibColMax
import proofs.«116456_g50568944943757_cont_8to1c4_257_25_alg».proof.Proof.RowSpec
import Idealize.ShloMosaic.Lib.ValueLayout
import Idealize.ShloMosaic.Lib.Pipeline.Value

noncomputable section

namespace Cert.KernelIdeal.Rows

open Cert.KernelIdeal Cert.KernelIdeal.Gen Idealize.ShloMosaic Idealize.ShloMosaic.ValueIdx Cert.LibDense Cert.LibColMax

/-- What the body computes for one batch row, from the row's logits and its slab of draws: the first row's payloads,
    the scratch read-back being the weights just stored. -/
def rowOut {F : FTy → Type} [FloatOps F] (l : Vec F S1x1x8192 .f32) (u : Vec F S1x64x8192 .f32) : FVec F S1x1x8192 .f32 :=
  k0_pay4 l u (k0_pay3 l u)

section Same
variable {F : FTy → Type} [FloatOps F]

/-- The second, third and fourth batch rows go through the same operations as the first (the body is the first row's
    text four times over, cut at other places). -/
theorem row1 (l : Vec F S1x1x8192 .f32) (u : Vec F S1x64x8192 .f32) :
    k0_pay8 (k0_pay5 l) u (k0_pay7 (k0_pay5 l) u) = rowOut l u := rfl
theorem row2 (l : Vec F S1x1x8192 .f32) (u : Vec F S1x64x8192 .f32) :
    k0_pay11 (k0_pay9 l u) (k0_pay10 (k0_pay9 l u)) = rowOut l u := rfl
theorem row3 (l : Vec F S1x1x8192 .f32) (u : Vec F S1x64x8192 .f32) :
    k0_pay1 (k0_pay14 l u) (k0_pay13 l u) k0_pay15 = rowOut l u := rfl

end Same

/-- The row's logits and the k-th row of its slab, as functions of the position d. -/
abbrev logitsOf (l : Vec Ideal S1x1x8192 .f32) : Fin 8192 → EReal := fun d => l (ix3 (0 : Fin 1) (0 : Fin 1) d)
abbrev drawsOf (u : Vec Ideal S1x64x8192 .f32) (k : Fin 64) : Fin 8192 → EReal := fun d => u (ix3 (0 : Fin 1) k d)

/-- The weights at (k, d): (1 / (log u(k, d))²) · exp (2 · l(d)). -/
theorem weight_apply (l : Vec Ideal S1x1x8192 .f32) (u : Vec Ideal S1x64x8192 .f32) (k : Fin 64) (d : Fin 8192) :
    k0_pay2 (F := Ideal) l u (ix2 k d) = GumbelRow.weight (logitsOf l) (drawsOf u k) d := by
  have h6 : shapeCast S64x8192 u shapeCasts_S1x64x8192_S64x8192 (ix2 k d) = u (ix3 (0 : Fin 1) k d) :=
    shapeCast_1ab_ab_apply u _ k d
  have h1 : shapeCast S1x8192 l shapeCasts_S1x1x8192_S1x8192 (ix2 (0 : Fin 1) d) = l (ix3 (0 : Fin 1) (0 : Fin 1) d) :=
    shapeCast_1ab_ab_apply l _ 0 d
  unfold k0_pay2 GumbelRow.weight
  show Ideal.div (Ideal.ofBits .f32 0x3F800000#32)
        (Ideal.log (shapeCast S64x8192 u shapeCasts_S1x64x8192_S64x8192 (ix2 k d))
          * Ideal.log (shapeCast S64x8192 u shapeCasts_S1x64x8192_S64x8192 (ix2 k d)))
      * broadcastTo S64x8192 (exp (mulf (broadcast S1x8192 (Scalar.ofBits (F := Ideal) .f32 0x40000000#32))
          (shapeCast S1x8192 l shapeCasts_S1x1x8192_S1x8192)) : FVec Ideal S1x8192 .f32) broadcasts_S1x8192_S64x8192 (ix2 k d) = _
  rw [h6, broadcastTo_1b_ab_apply]
  show _ * Ideal.exp (Ideal.ofBits .f32 0x40000000#32 * shapeCast S1x8192 l shapeCasts_S1x1x8192_S1x8192 (ix2 (0 : Fin 1) d)) = _
  rw [h1]

/-- The row's result at position d: the maximum over k, from minus infinity, of the weight at (k, d) times the
    reciprocal of the k-th row's sum of weights. -/
theorem rowOut_apply (l : Vec Ideal S1x1x8192 .f32) (u : Vec Ideal S1x64x8192 .f32) (d : Fin 8192) :
    rowOut (F := Ideal) l u (ix3 (0 : Fin 1) (0 : Fin 1) d)
      = (Finset.univ : Finset (Fin 64)).fold max (Ideal.ofBits .f32 0xFF800000#32)
          (fun k => GumbelRow.ratio (logitsOf l) (drawsOf u k) d) := by
  unfold rowOut k0_pay4 k0_pay3
  refine (shapeCast_ab_1ab_apply _ shapeCasts_S1x8192_S1x1x8192 (0 : Fin 1) (0 : Fin 1) d).trans ?_
  refine (shapeCast_a_1a_apply _ shapeCasts_S8192_S1x8192 (0 : Fin 1) d).trans ?_
  refine (colMax_apply _ reduces_S64x8192_S8192 (.inl rfl) rfl d).trans ?_
  refine congrArg (fun f => Finset.fold max (Ideal.ofBits .f32 0xFF800000#32) f Finset.univ) (funext fun k => ?_)
  unfold GumbelRow.ratio
  rw [shapeCast_self]
  show k0_pay2 (F := Ideal) l u (ix2 k d) * broadcastTo S64x8192 _ broadcasts_S64x1_S64x8192 (ix2 k d) = _
  rw [broadcastTo_a1_ab_apply, weight_apply]
  show _ * Ideal.div (Ideal.ofBits .f32 0x3F800000#32) (shapeCast S64x1 _ shapeCasts_S64_S64x1 (ix2 k (0 : Fin 1))) = _
  rw [shapeCast_a_a1_apply, rowSum_apply]
  refine congrArg (fun s => _ * Ideal.div _ s) (Finset.sum_congr rfl fun d' _ => weight_apply l u k d')

end Cert.KernelIdeal.Rows

end
-- ==== Proof.BlockPieces.lean ====
/-
  What one grid point leaves in the output's staging block, at the exact instance.

  The body stores the output block in four pieces, one per batch row j of the block: row j of the block receives
  the row function (`Rows.rowOut`) of row j of the logits block and slab j of the draws block. Read at (j, u, d),
  the block is therefore the maximum over k of the softmax row entry, in the kernel's arrangement, of the block's
  j-th logits row and the k-th row of its j-th slab of draws.
-/
import proofs.«116456_g50568944943757_cont_8to1c4_257_25_alg».proof.Proof.Gen.KernelIdeal.Frame
import proofs.«116456_g50568944943757_cont_8to1c4_257_25_alg».proof.Proof.RowRead
import Idealize.ShloMosaic.Lib.Pipeline.Value

set_option maxRecDepth 16384

noncomputable section

namespace Cert.KernelIdeal.Block

open Cert.KernelIdeal Cert.KernelIdeal.Gen Cert.KernelIdeal.Rows
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section FirstRow
variable {F : FTy → Type} [FloatOps F]

/-- The first batch row's payloads are the row function by definition. -/
theorem row0 (l : Vec F S1x1x8192 .f32) (u : Vec F S1x64x8192 .f32) : k0_pay4 l u (k0_pay3 l u) = rowOut l u := rfl

end FirstRow

-- Below, the row function enters only through its equations: the four rows' (row0 … row3) and its value at a
-- position (`rowOut_apply`).
attribute [local irreducible] rowOut

section Pieces
variable {F : FTy → Type} [FloatOps F]

/-- The store of batch row j of the output block: on the row's rectangle, the row function of row j of the logits
    block and slab j of the draws block. -/
def pieceAt (x0 : Vec F S4x1x8192 .f32) (x1 : Vec F S4x64x8192 .f32) (j : Nat)
    (inb0 : ∀ a, (![j, 0, 0] : Fin 3 → Nat) a + S1x1x8192.size a ≤ S4x1x8192.size a)
    (inb1 : ∀ a, (![j, 0, 0] : Fin 3 → Nat) a + S1x64x8192.size a ≤ S4x64x8192.size a) :
    View.Piece (Elt F) S4x1x8192 .f32 :=
  ⟨Rect.unit (s := S4x1x8192) ![j, 0, 0] S1x1x8192.size inb0,
    rowOut (View.ld x0 (Rect.unit (s := S4x1x8192) ![j, 0, 0] S1x1x8192.size inb0))
      (View.ld x1 (Rect.unit (s := S4x64x8192) ![j, 0, 0] S1x64x8192.size inb1))⟩

/-- The four stores of the output block, last first. -/
def pieces (x0 : Vec F S4x1x8192 .f32) (x1 : Vec F S4x64x8192 .f32) : List (View.Piece (Elt F) S4x1x8192 .f32) :=
  [pieceAt x0 x1 3 inb_S4x1x8192_S1x1x8192_3_0_0 inb_S4x64x8192_S1x64x8192_3_0_0,
    pieceAt x0 x1 2 inb_S4x1x8192_S1x1x8192_2_0_0 inb_S4x64x8192_S1x64x8192_2_0_0,
    pieceAt x0 x1 1 inb_S4x1x8192_S1x1x8192_1_0_0 inb_S4x64x8192_S1x64x8192_1_0_0,
    pieceAt x0 x1 0 inb_S4x1x8192_S1x1x8192_0_0_0 inb_S4x64x8192_S1x64x8192_0_0_0]

/-- The pieces the body's run leaves in the output block are these: each row's read-back of the scratch buffer is
    the weights the row has just stored there, and the four rows go through the same operations. -/
theorem run_pieces (c : Dev nD) (i : grid0.Coords) (arg1 : Memref sig .tc .vmem S4x1x8192 .f32) (harg1 : arg1.IsWhole) (arg2 : Memref sig .tc .vmem S4x64x8192 .f32) (harg2 : arg2.IsWhole) (arg3 : Memref sig .tc .vmem S4x1x8192 .f32) (harg3 : arg3.IsWhole) (arg4 : Memref sig .tc .vmem S256x8192 .f32) (harg4 : arg4.IsWhole)
    (x0 : Vec F S4x1x8192 .f32) (x1 : Vec F S4x64x8192 .f32) :
    (kernelRun0_A c i arg1 harg1 arg2 harg2 arg3 harg3 arg4 harg4 x0 x1).1 = pieces x0 x1 := by
  unfold kernelRun0_A
  dsimp only
  sl_unfold_words
  simp only [View.readCov_cons_toLoadRect, View.readAt_eq_ld, harg1.read_unread, harg2.read_unread]
  rw [row1, row2, row3, row0]
  rfl

end Pieces

/-- The block one grid point leaves, as a function of the block's index: at (j, ·, d) the maximum over k, from minus
    infinity, of the softmax row entry of the logits block's row j and the k-th row of the draws block's slab j. -/
def blockOf (x0 : Vec Ideal S4x1x8192 .f32) (x1 : Vec Ideal S4x64x8192 .f32) : S4x1x8192.Idx → EReal := fun y =>
  (Finset.univ : Finset (Fin 64)).fold max (Ideal.ofBits .f32 0xFF800000#32) (fun k =>
    GumbelRow.ratio (fun d' : Fin 8192 => x0 (ix3 (⟨(y 0).val, (y 0).isLt⟩ : Fin 4) (0 : Fin 1) d'))
      (fun d' : Fin 8192 => x1 (ix3 (⟨(y 0).val, (y 0).isLt⟩ : Fin 4) k d')) (⟨(y 2).val, (y 2).isLt⟩ : Fin 8192))

theorem blockOf_apply (x0 : Vec Ideal S4x1x8192 .f32) (x1 : Vec Ideal S4x64x8192 .f32) (j : Fin 4) (u : Fin 1) (d : Fin 8192) :
    blockOf x0 x1 (ix3 j u d) = (Finset.univ : Finset (Fin 64)).fold max (Ideal.ofBits .f32 0xFF800000#32) (fun k =>
      GumbelRow.ratio (fun d' : Fin 8192 => x0 (ix3 j (0 : Fin 1) d')) (fun d' : Fin 8192 => x1 (ix3 j k d')) d) := rfl

/-- One piece's payload is the block function on the piece's rectangle. -/
theorem piece_eq (x0 : Vec Ideal S4x1x8192 .f32) (x1 : Vec Ideal S4x64x8192 .f32) (j : Nat) (hj : j < 4)
    (inb0 : ∀ a, (![j, 0, 0] : Fin 3 → Nat) a + S1x1x8192.size a ≤ S4x1x8192.size a)
    (inb1 : ∀ a, (![j, 0, 0] : Fin 3 → Nat) a + S1x64x8192.size a ≤ S4x64x8192.size a)
    (x : (Rect.unit (s := S4x1x8192) ![j, 0, 0] S1x1x8192.size inb0).shape.Idx) :
    rowOut (F := Ideal) (View.ld x0 (Rect.unit (s := S4x1x8192) ![j, 0, 0] S1x1x8192.size inb0))
        (View.ld x1 (Rect.unit (s := S4x64x8192) ![j, 0, 0] S1x64x8192.size inb1)) x
      = blockOf x0 x1 ((Rect.unit (s := S4x1x8192) ![j, 0, 0] S1x1x8192.size inb0).emb x) := by
  obtain ⟨a, b, d, rfl⟩ : ∃ (a : Fin 1) (b : Fin 1) (d : Fin 8192), x = ix3 a b d := ⟨x 0, x 1, x 2, eq_ix3 x⟩
  obtain rfl : a = 0 := Subsingleton.elim _ _
  obtain rfl : b = 0 := Subsingleton.elim _ _
  refine (rowOut_apply _ _ d).trans ?_
  have e : (Rect.unit (s := S4x1x8192) ![j, 0, 0] S1x1x8192.size inb0).emb (ix3 (0 : Fin 1) (0 : Fin 1) d)
      = ix3 (⟨j, hj⟩ : Fin 4) (0 : Fin 1) d := by
    funext a
    apply Fin.ext
    match a with
    | ⟨0, _⟩ => show j + 1 * 0 = j; omega
    | ⟨1, _⟩ => show 0 + 1 * 0 = 0; omega
    | ⟨2, _⟩ => show 0 + 1 * d.val = d.val; omega
  rw [e, blockOf_apply]
  refine congrArg (fun f => Finset.fold max (Ideal.ofBits .f32 0xFF800000#32) f Finset.univ) (funext fun k => ?_)
  have e0 : logitsOf (View.ld x0 (Rect.unit (s := S4x1x8192) ![j, 0, 0] S1x1x8192.size inb0))
      = fun d' : Fin 8192 => x0 (ix3 (⟨j, hj⟩ : Fin 4) (0 : Fin 1) d') := funext fun d' => congrArg x0 (by
    funext a
    apply Fin.ext
    match a with
    | ⟨0, _⟩ => show j + 1 * 0 = j; omega
    | ⟨1, _⟩ => show 0 + 1 * 0 = 0; omega
    | ⟨2, _⟩ => show 0 + 1 * d'.val = d'.val; omega)
  have e1 : drawsOf (View.ld x1 (Rect.unit (s := S4x64x8192) ![j, 0, 0] S1x64x8192.size inb1)) k
      = fun d' : Fin 8192 => x1 (ix3 (⟨j, hj⟩ : Fin 4) k d') := funext fun d' => congrArg x1 (by
    funext a
    apply Fin.ext
    match a with
    | ⟨0, _⟩ => show j + 1 * 0 = j; omega
    | ⟨1, _⟩ => show 0 + 1 * k.val = k.val; omega
    | ⟨2, _⟩ => show 0 + 1 * d'.val = d'.val; omega)
  rw [e0, e1]

/-- The same, for the piece by its name. -/
theorem pieceAt_eq (x0 : Vec Ideal S4x1x8192 .f32) (x1 : Vec Ideal S4x64x8192 .f32) (j : Nat) (hj : j < 4)
    (inb0 : ∀ a, (![j, 0, 0] : Fin 3 → Nat) a + S1x1x8192.size a ≤ S4x1x8192.size a)
    (inb1 : ∀ a, (![j, 0, 0] : Fin 3 → Nat) a + S1x64x8192.size a ≤ S4x64x8192.size a) :
    ∀ x : (pieceAt x0 x1 j inb0 inb1).1.shape.Idx,
      (pieceAt x0 x1 j inb0 inb1).2 x = blockOf x0 x1 ((pieceAt x0 x1 j inb0 inb1).1.emb x) :=
  fun x => piece_eq x0 x1 j hj inb0 inb1 x

/-- Every piece of the list is the block function on its rectangle. -/
theorem pieces_eq (x0 : Vec Ideal S4x1x8192 .f32) (x1 : Vec Ideal S4x64x8192 .f32) :
    ∀ p ∈ pieces x0 x1, ∀ x : p.1.shape.Idx, p.2 x = blockOf x0 x1 (p.1.emb x) := by
  unfold pieces
  refine List.forall_mem_cons.mpr ⟨pieceAt_eq x0 x1 3 (by omega) _ _, ?_⟩
  refine List.forall_mem_cons.mpr ⟨pieceAt_eq x0 x1 2 (by omega) _ _, ?_⟩
  refine List.forall_mem_cons.mpr ⟨pieceAt_eq x0 x1 1 (by omega) _ _, ?_⟩
  refine List.forall_mem_cons.mpr ⟨pieceAt_eq x0 x1 0 (by omega) _ _, ?_⟩
  exact fun _ h => absurd h List.not_mem_nil

/-- What a grid point leaves in the output block: the block function of the point's two input blocks. -/
theorem out_eq (c : Dev nD) (i : grid0.Coords) (arg1 : Memref sig .tc .vmem S4x1x8192 .f32) (harg1 : arg1.IsWhole) (arg2 : Memref sig .tc .vmem S4x64x8192 .f32) (harg2 : arg2.IsWhole) (arg3 : Memref sig .tc .vmem S4x1x8192 .f32) (harg3 : arg3.IsWhole) (arg4 : Memref sig .tc .vmem S256x8192 .f32) (harg4 : arg4.IsWhole)
    (x0 : Vec Ideal S4x1x8192 .f32) (x1 : Vec Ideal S4x64x8192 .f32) :
    out0_A_2 (F := Ideal) c i arg1 harg1 arg2 harg2 arg3 harg3 arg4 harg4 x0 x1 = blockOf x0 x1 := by
  funext y
  unfold out0_A_2
  rw [View.read_writes_eq_canon _ _ _ (cover0_A_2 c i arg1 harg1 arg2 harg2 arg3 harg3 arg4 harg4 x0 x1)]
  have hc := cover0_A_2 c i arg1 harg1 arg2 harg2 arg3 harg3 arg4 harg4 x0 x1 y
  rw [run_pieces] at hc ⊢
  exact View.canon_apply_of_pieces (blockOf x0 x1) (pieces x0 x1) (pieces_eq x0 x1) y hc

end Cert.KernelIdeal.Block

end
-- ==== Proof.BlockGeometry.lean ====
/-
  The geometry of the pipeline's blocks. The grid has 8 points. Each of the three windows cuts its array into
  blocks of 4 batch rows along the leading axis and takes, at grid point t, the block with block index (t, 0, 0).
  A block's coordinate in its array is always (block index) × (block extent) + (coordinate inside the block), so
  entry (j, ·, d) of point t's block is entry (4·t + j, ·, d) of the array; and since 8 blocks of 4 rows fill the
  32 rows, every index of the output array lies in the block of exactly the point (row / 4), which is written back.
-/
import proofs.«116456_g50568944943757_cont_8to1c4_257_25_alg».proof.Proof.Gen.KernelIdeal.Frame
import Idealize.ShloMosaic.Lib.Pipeline.Value
import Idealize.ShloMosaic.Lib.ValueIdx

noncomputable section

namespace Cert.KernelIdeal.Geometry

open Cert.KernelIdeal Cert.KernelIdeal.Gen Idealize.ShloMosaic Idealize.ShloMosaic.ValueIdx Idealize.ShloMosaic.TcCoe Idealize.SL.Sem

/-- The three index maps, evaluated at each of the 8 grid points: the block index of point t is (t, 0, 0). -/
theorem index_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- Window 0 (blocks [4,1,8192] of the [32,1,8192] array): entry (j, u, d) of point t's block is entry
    (4·t + j, u, d) of the array. Axis by axis the array coordinate is index × extent + 1 × inner coordinate:
    t·4 + j, 0·1 + u, 0·8192 + d. -/
theorem emb0 (t : Fin cfg0.N) (j : Fin 4) (u : Fin 1) (d : Fin 8192) (h : 4 * t.val + j.val < 32) :
    ((cfg0.win 0).blk t).view.emb (ix3 j u d) = (ix3 (⟨4 * t.val + j.val, h⟩ : Fin 32) u d : S32x1x8192.Idx) := by
  obtain ⟨e0, e1, e2, -⟩ := index_facts t
  funext a; apply Fin.ext
  match a with
  | ⟨0, _⟩ => show win0_0.index t (0 : Fin 3) * 4 + 1 * j.val = 4 * t.val + j.val; omega
  | ⟨1, _⟩ => show win0_0.index t (1 : Fin 3) * 1 + 1 * u.val = u.val; omega
  | ⟨2, _⟩ => show win0_0.index t (2 : Fin 3) * 8192 + 1 * d.val = d.val; omega

/-- Window 1 (blocks [4,64,8192] of the [32,64,8192] array): entry (j, k, d) of point t's block is entry
    (4·t + j, k, d) of the array: t·4 + j, 0·64 + k, 0·8192 + d. -/
theorem emb1 (t : Fin cfg0.N) (j : Fin 4) (k : Fin 64) (d : Fin 8192) (h : 4 * t.val + j.val < 32) :
    ((cfg0.win 1).blk t).view.emb (ix3 j k d) = (ix3 (⟨4 * t.val + j.val, h⟩ : Fin 32) k d : S32x64x8192.Idx) := by
  obtain ⟨-, -, -, e0, e1, e2, -⟩ := index_facts t
  funext a; apply Fin.ext
  match a with
  | ⟨0, _⟩ => show win0_1.index t (0 : Fin 3) * 4 + 1 * j.val = 4 * t.val + j.val; omega
  | ⟨1, _⟩ => show win0_1.index t (1 : Fin 3) * 64 + 1 * k.val = k.val; omega
  | ⟨2, _⟩ => show win0_1.index t (2 : Fin 3) * 8192 + 1 * d.val = d.val; omega

/-- Window 2, the output (blocks [4,1,8192] of the [32,1,8192] array): entry (j, u, d) of point t's block is
    entry (4·t + j, u, d) of the array. -/
theorem emb2 (t : Fin cfg0.N) (j : Fin 4) (u : Fin 1) (d : Fin 8192) (h : 4 * t.val + j.val < 32) :
    ((cfg0.win 2).blk t).view.emb (ix3 j u d) = (ix3 (⟨4 * t.val + j.val, h⟩ : Fin 32) u d : S32x1x8192.Idx) := by
  obtain ⟨-, -, -, -, -, -, e0, e1, e2⟩ := index_facts t
  funext a; apply Fin.ext
  match a with
  | ⟨0, _⟩ => show win0_2.index t (0 : Fin 3) * 4 + 1 * j.val = 4 * t.val + j.val; omega
  | ⟨1, _⟩ => show win0_2.index t (1 : Fin 3) * 1 + 1 * u.val = u.val; omega
  | ⟨2, _⟩ => show win0_2.index t (2 : Fin 3) * 8192 + 1 * d.val = d.val; omega

/-- An index of the output array is in point t's block iff on every axis its coordinate lies in the block's
    range [index × extent, index × extent + extent). -/
theorem mem_blk2 (t : Fin cfg0.N) (i : S32x1x8192.Idx) :
    i ∈ ((cfg0.win 2).blk t).view.set ↔ ∀ a : Fin 3, win0_2.index t a * S4x1x8192.size a ≤ (i a).val ∧ (i a).val < win0_2.index t a * S4x1x8192.size a + S4x1x8192.size a := by
  show i ∈ ((View.whole main_v1).slice (win0_2.rect t)).set ↔ _
  rw [View.set_slice_whole, Rect.mem_set_unit]
  exact Iff.rfl

/-- The output's blocks cover its array: the index with batch row r lies in the block of point r / 4
    (4·(r/4) ≤ r < 4·(r/4) + 4, and the other two axes are taken whole), and every point writes its block back. -/
theorem cover (i : S32x1x8192.Idx) :
    ∃ t : Fin cfg0.N, (cfg0.win 2).flush t = true ∧ i ∈ ((cfg0.win 2).blk t).view.set := by
  have hN : grid0.N = 8 := N_0
  have hi0 : (i 0).val < 32 := (i 0).isLt
  have hi1 : (i 1).val < 1 := (i 1).isLt
  have hi2 : (i 2).val < 8192 := (i 2).isLt
  have hq : (i 0).val / 4 < grid0.N := by omega
  obtain ⟨-, -, -, -, -, -, e0, e1, e2⟩ := index_facts ⟨(i 0).val / 4, hq⟩
  have e0' : win0_2.index ⟨(i 0).val / 4, hq⟩ (0 : Fin 3) = (i 0).val / 4 := e0
  refine ⟨⟨(i 0).val / 4, hq⟩, flush0_2 _, ?_⟩
  rw [mem_blk2]
  intro a
  match a with
  | ⟨0, _⟩ => show win0_2.index ⟨(i 0).val / 4, hq⟩ (0 : Fin 3) * 4 ≤ (i 0).val ∧ (i 0).val < win0_2.index ⟨(i 0).val / 4, hq⟩ (0 : Fin 3) * 4 + 4; omega
  | ⟨1, _⟩ => show win0_2.index ⟨(i 0).val / 4, hq⟩ (1 : Fin 3) * 1 ≤ (i 1).val ∧ (i 1).val < win0_2.index ⟨(i 0).val / 4, hq⟩ (1 : Fin 3) * 1 + 1; omega
  | ⟨2, _⟩ => show win0_2.index ⟨(i 0).val / 4, hq⟩ (2 : Fin 3) * 8192 ≤ (i 2).val ∧ (i 2).val < win0_2.index ⟨(i 0).val / 4, hq⟩ (2 : Fin 3) * 8192 + 8192; omega

end Cert.KernelIdeal.Geometry

end
-- ==== Proof.HostEnds.lean ====
/-
  The two host reshapes around the kernel's region, read at an index: the reshape before the region inserts a
  unit axis in the middle of the `[32, 8192]` argument, the reshape after it drops that axis from the region's
  `[32, 1, 8192]` output. Both keep the row-major order, so position `(b, 0, d)` of the three-axis array is
  position `(b, d)` of the two-axis one.
-/
import proofs.«116456_g50568944943757_cont_8to1c4_257_25_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.HostEnds

open Cert.KernelIdeal Cert.KernelIdeal.Gen Idealize.ShloMosaic Idealize.ShloMosaic.ValueIdx Idealize.ShloMosaic.TcCoe
  Idealize.SL.Sem

/-! ### A middle unit axis added or dropped by a shape cast -/

/-- An `[a, b]` array cast to `[a, 1, b]` reads, at `(i, u, j)`, the operand at `(i, j)`: both positions are
    `i · b + j` in row-major order. -/
theorem shapeCast_ab_a1b_apply {α : Type} {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, 1, b]` array cast to `[a, b]` reads, at `(i, j)`, the operand at `(i, 0, j)`. -/
theorem shapeCast_a1b_ab_apply {α : Type} {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

variable {F : FTy → Type} [FloatOps F] (m : (ℓ : Loc nD τ sig) → Buf (Elt F) ℓ)

/-! ### The reshape before the region -/

/-- What the region finds in `main_v0`: the launch contents of `main_arg0` recast to three axes. -/
theorem head_eq (c : Dev nD) :
    (V m c main_v0 : S32x1x8192.Idx → Elt F .f32)
      = shapeCast S32x1x8192 (m ((c : Thread nD τ).loc main_arg0) : S32x8192.Idx → Elt F .f32)
          shapeCasts_S32x8192_S32x1x8192 := by
  show StableHlo.after hostOps0 (fun b => m (c, b)) (Proc.devRef .tc main_v0) = _
  after_results
  rfl

/-- The region's first input at `(b, u, d)` is the argument at `(b, d)`. -/
theorem head_apply (c : Dev nD) (b : Fin 32) (u : Fin 1) (d : Fin 8192) :
    (V m c main_v0 : S32x1x8192.Idx → Elt F .f32) (ix3 b u d)
      = (m ((c : Thread nD τ).loc main_arg0) : S32x8192.Idx → Elt F .f32) (ix2 b d) := by
  rw [head_eq m c]
  exact shapeCast_ab_a1b_apply _ _ b u d

/-! ### The reshape after the region -/

/-- What the tail leaves in `main_v2`: the region's output array recast to two axes. -/
theorem tail_eq (c : Dev nD) :
    (Pipeline.afterTail₀ cfgs (dats m) 0 (V0 m) [hostOps1] c main_v2 : S32x8192.Idx → Elt F .f32)
      = shapeCast S32x8192 ((dats m 0 c).arrAt 2 cfg0.N : S32x1x8192.Idx → Elt F .f32)
          shapeCasts_S32x1x8192_S32x8192 := by
  unfold Pipeline.afterTail₀
  show StableHlo.after hostOps1 _ (Proc.devRef .tc main_v2) = _
  after_results
  rw [Pipeline.withArrays_arr spec0 launch0.win.arr_inj c _ _ 2]
  rfl

/-- The program's result at `(b, d)` is the region's output array at `(b, 0, d)`. -/
theorem tail_apply (c : Dev nD) (b : Fin 32) (d : Fin 8192) :
    (Pipeline.afterTail₀ cfgs (dats m) 0 (V0 m) [hostOps1] c main_v2 : S32x8192.Idx → Elt F .f32) (ix2 b d)
      = ((dats m 0 c).arrAt 2 cfg0.N : S32x1x8192.Idx → Elt F .f32) (ix3 b (0 : Fin 1) d) := by
  rw [tail_eq m c]
  exact shapeCast_a1b_ab_apply _ _ b d

end Cert.KernelIdeal.HostEnds

end
-- ==== Proof.KernelArray.lean ====
/-
  The kernel's result array, at the exact instance, as one function of the two argument arrays.

  Grid point t handles batch rows 4t … 4t + 3: its logits block is those rows of the reshaped logits, its draws block
  those slabs of the draws, and it writes back those rows of the output array. The eight points' blocks tile the
  output array, so after the region it holds, at (b, ·, d), the maximum over k of the softmax row entry (in the
  kernel's arrangement) of batch b's logits and the k-th row of batch b's draws; the reshape after the region gives
  the same number at (b, d).
-/
import proofs.«116456_g50568944943757_cont_8to1c4_257_25_alg».proof.Proof.BlockPieces
import proofs.«116456_g50568944943757_cont_8to1c4_257_25_alg».proof.Proof.BlockGeometry
import proofs.«116456_g50568944943757_cont_8to1c4_257_25_alg».proof.Proof.HostEnds

set_option maxRecDepth 16384

noncomputable section

namespace Cert.KernelIdeal.Array

open Cert.KernelIdeal Cert.KernelIdeal.Gen Cert.KernelIdeal.Block Cert.KernelIdeal.Geometry Cert.KernelIdeal.HostEnds
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The result as one function of the logits and the draws: at (b, d) the maximum over k, from minus infinity, of the
    softmax row entry, in the kernel's arrangement, of batch b's logits and the k-th row of batch b's draws. -/
def result (a0 : S32x8192.Idx → EReal) (a1 : S32x64x8192.Idx → EReal) : S32x8192.Idx → EReal := fun i =>
  (Finset.univ : Finset (Fin 64)).fold max (Ideal.ofBits .f32 0xFF800000#32) (fun k =>
    GumbelRow.ratio (fun d' : Fin 8192 => a0 (ix2 (⟨(i 0).val, (i 0).isLt⟩ : Fin 32) d'))
      (fun d' : Fin 8192 => a1 (ix3 (⟨(i 0).val, (i 0).isLt⟩ : Fin 32) k d')) (⟨(i 1).val, (i 1).isLt⟩ : Fin 8192))

theorem result_apply (a0 : S32x8192.Idx → EReal) (a1 : S32x64x8192.Idx → EReal) (b : Fin 32) (d : Fin 8192) :
    result a0 a1 (ix2 b d) = (Finset.univ : Finset (Fin 64)).fold max (Ideal.ofBits .f32 0xFF800000#32) (fun k =>
      GumbelRow.ratio (fun d' : Fin 8192 => a0 (ix2 b d')) (fun d' : Fin 8192 => a1 (ix3 b k d')) d) := rfl

/-- The output array after the region, as a function of its index: the same maximum with the middle unit axis kept. -/
def outArray (a0 : S32x8192.Idx → EReal) (a1 : S32x64x8192.Idx → EReal) : S32x1x8192.Idx → EReal := fun i =>
  result a0 a1 (ix2 (⟨(i 0).val, (i 0).isLt⟩ : Fin 32) (⟨(i 2).val, (i 2).isLt⟩ : Fin 8192))

theorem outArray_apply (a0 : S32x8192.Idx → EReal) (a1 : S32x64x8192.Idx → EReal) (b : Fin 32) (u : Fin 1) (d : Fin 8192) :
    outArray a0 a1 (ix3 b u d) = result a0 a1 (ix2 b d) := rfl

/-- The logits block of point t, read at (j, u, d): batch row 4t + j of the logits at d. -/
theorem logitsBlock_apply (c : Dev nD) (t : Fin cfg0.N) (j : Fin 4) (u : Fin 1) (d : Fin 8192) (h : 4 * t.val + j.val < 32) :
    (iblk m c 0 t : Vec Ideal S4x1x8192 .f32) (ix3 j u d)
      = (m ((c : Thread nD τ).loc main_arg0) : S32x8192.Idx → EReal) (ix2 (⟨4 * t.val + j.val, h⟩ : Fin 32) d) := by
  unfold iblk
  rw [View.read_apply]
  show (V m c main_v0 : S32x1x8192.Idx → EReal) (((cfg0.win 0).blk t).view.emb (ix3 j u d)) = _
  rw [emb0 t j u d h]
  exact head_apply m c _ u d

/-- The draws block of point t, read at (j, k, d): batch row 4t + j of the draws at (k, d). -/
theorem drawsBlock_apply (c : Dev nD) (t : Fin cfg0.N) (j : Fin 4) (k : Fin 64) (d : Fin 8192) (h : 4 * t.val + j.val < 32) :
    (iblk m c 1 t : Vec Ideal S4x64x8192 .f32) (ix3 j k d)
      = (m ((c : Thread nD τ).loc main_arg1) : S32x64x8192.Idx → EReal) (ix3 (⟨4 * t.val + j.val, h⟩ : Fin 32) k d) := by
  unfold iblk
  rw [View.read_apply]
  show (V m c main_arg1 : S32x64x8192.Idx → EReal) (((cfg0.win 1).blk t).view.emb (ix3 j k d)) = _
  rw [emb1 t j k d h, V_main_arg1]

/-- What point t writes back is block t of the output function of the two argument arrays. -/
theorem flushed_eq (c : Dev nD) (t : Fin cfg0.N) :
    (dats m 0 c).flushed 2 t = ((cfg0.win 2).blk t).view.read (Elt Ideal)
      (outArray (m ((c : Thread nD τ).loc main_arg0)) (m ((c : Thread nD τ).loc main_arg1))) := by
  show (cfg0.win 2).cut (grid0.coords t) ((dats m 0 c).after 2 t) = _
  rw [after0_2]
  unfold outsAt0
  rw [out_eq]
  funext y
  obtain ⟨j, u, d, rfl⟩ : ∃ (j : Fin 4) (u : Fin 1) (d : Fin 8192), y = ix3 j u d := ⟨y 0, y 1, y 2, eq_ix3 y⟩
  have hN : grid0.N = 8 := N_0
  have ht : t.val < 8 := by have h' : t.val < grid0.N := t.isLt; omega
  have h : 4 * t.val + j.val < 32 := by have := j.isLt; omega
  rw [View.read_apply, emb2 t j u d h, outArray_apply, result_apply]
  show blockOf (iblk m c 0 t) (iblk m c 1 t) (ix3 j u d) = _
  rw [blockOf_apply]
  refine congrArg (fun f => Finset.fold max (Ideal.ofBits .f32 0xFF800000#32) f Finset.univ) (funext fun k => ?_)
  have e0 : (fun d' : Fin 8192 => (iblk m c 0 t : Vec Ideal S4x1x8192 .f32) (ix3 j (0 : Fin 1) d'))
      = fun d' : Fin 8192 => (m ((c : Thread nD τ).loc main_arg0) : S32x8192.Idx → EReal) (ix2 (⟨4 * t.val + j.val, h⟩ : Fin 32) d') :=
    funext fun d' => logitsBlock_apply m c t j 0 d' h
  have e1 : (fun d' : Fin 8192 => (iblk m c 1 t : Vec Ideal S4x64x8192 .f32) (ix3 j k d'))
      = fun d' : Fin 8192 => (m ((c : Thread nD τ).loc main_arg1) : S32x64x8192.Idx → EReal) (ix3 (⟨4 * t.val + j.val, h⟩ : Fin 32) k d') :=
    funext fun d' => drawsBlock_apply m c t j k d' h
  rw [e0, e1]

/-- The eight blocks tile the output array, so after the region it holds the output function. -/
theorem final (c : Dev nD) :
    (dats m 0 c).arrAt 2 cfg0.N = outArray (m ((c : Thread nD τ).loc main_arg0)) (m ((c : Thread nD τ).loc main_arg1)) :=
  (dats m 0 c).arrAt_eq_of_cover 2 _ (fun t _ => flushed_eq m c t) cover

/-- The program's result after the reshape that follows the region. -/
theorem result_after_tail (c : Dev nD) :
    (Pipeline.afterTail₀ cfgs (dats m) 0 (V0 m) [hostOps1] c main_v2 : S32x8192.Idx → EReal)
      = result (m ((c : Thread nD τ).loc main_arg0)) (m ((c : Thread nD τ).loc main_arg1)) := by
  funext i
  obtain ⟨b, d, rfl⟩ : ∃ (b : Fin 32) (d : Fin 8192), i = ix2 b d := ⟨i 0, i 1, eq_ix2 i⟩
  rw [tail_apply m c b d, final m c, outArray_apply]

/-- The run, read: every weakly fair execution of the kernel's program ends with the result array at the result
    function of the argument arrays, and the argument arrays unchanged. -/
theorem run : θ_run defs (onTc (τ := τ) (main (F := Ideal))) ⟨m, fun _ => 0, ρ⟩ fun r => ∀ c : Dev nD,
      r.2.mem ((c.tc : Thread nD τ).loc main_v2) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v2 (Pipeline.mem_restRefs_of main_v2 (by decide) (by decide))).trans (result_after_tail m c),
       ((h c).2 main_arg0 (Pipeline.mem_restRefs_of main_arg0 (by decide) (by decide))).trans (W_main_arg0 m (dats m) c),
       ((h c).1 1).trans (((dats m 0 c).arrAt_in 1 rfl _).trans ((A_eq m c 1).trans (V_main_arg1 m c)))⟩)
    (run_main m ρ)

end Cert.KernelIdeal.Array

end
-- ==== Proof.LibMax3.lean ====
/-
  General facts, at the exact instance (floats as extended reals), about the host's reduction by maximum over ONE axis
  of a rank-3 array, read at an index written by its coordinates: over the last axis at (a, b) it is the fold of max,
  from the initial value's one element, over the entries (a, b, c); over the middle axis at (a, c) the fold over the
  entries (a, b, c).
-/
import Idealize.ShloMosaic.PureOps.Ideal.Laws
import Idealize.ShloMosaic.Lib.ValueIdx

noncomputable section

namespace Cert.LibMax3

open Idealize.ShloMosaic Idealize.ShloMosaic.ValueIdx

variable {A B C : Nat}

/-- The index of an [A, B, C] array that drops to (a, b) when the last axis is reduced, with c put on it, is (a, b, c). -/
theorem lift_last (h : (⟨3, ![A, B, C]⟩ : Shape).Reduces [2] ⟨2, ![A, B]⟩) (a : Fin A) (b : Fin B) (c : Fin C) :
    h.lift (ix2 a b) c = ix3 a b c := by
  funext x
  apply Fin.ext
  match x with
  | ⟨0, _⟩ => rfl
  | ⟨1, _⟩ => rfl
  | ⟨2, _⟩ => rfl

/-- The index that drops to (a, c) when the middle axis is reduced, with b put on it, is (a, b, c). -/
theorem lift_mid (h : (⟨3, ![A, B, C]⟩ : Shape).Reduces [1] ⟨2, ![A, C]⟩) (a : Fin A) (c : Fin C) (b : Fin B) :
    h.lift (ix2 a c) b = ix3 a b c := by
  funext x
  apply Fin.ext
  match x with
  | ⟨0, _⟩ => rfl
  | ⟨1, _⟩ => rfl
  | ⟨2, _⟩ => rfl

/-- The host's maximum over the last axis, read at (a, b). -/
theorem hostMaxLast_apply {u : Shape} (x : (⟨3, ![A, B, C]⟩ : Shape).Idx → EReal) (init : u.Idx → EReal)
    (h' : (⟨3, ![A, B, C]⟩ : Shape).ReducesTo [2] ⟨2, ![A, B]⟩) (h : (⟨3, ![A, B, C]⟩ : Shape).Reduces [2] ⟨2, ![A, B]⟩)
    (hu : 0 < u.numel) (a : Fin A) (b : Fin B) :
    Host.reduce (FloatOps.maximumf (F := Ideal) (φ := .f32)) x init h' hu (ix2 a b)
      = (Finset.univ : Finset (Fin C)).fold max (init (Shape.Idx.first hu)) (fun c => x (ix3 a b c)) := by
  refine (Host.reduce_eq_fold_single _ x init h' h hu (ix2 a b)).trans ?_
  have e : (x ∘ h.lift (ix2 a b)) = fun c => x (ix3 a b c) := funext fun c => congrArg x (lift_last h a b c)
  rw [e]
  rfl

/-- The host's maximum over the middle axis, read at (a, c). -/
theorem hostMaxMid_apply {u : Shape} (x : (⟨3, ![A, B, C]⟩ : Shape).Idx → EReal) (init : u.Idx → EReal)
    (h' : (⟨3, ![A, B, C]⟩ : Shape).ReducesTo [1] ⟨2, ![A, C]⟩) (h : (⟨3, ![A, B, C]⟩ : Shape).Reduces [1] ⟨2, ![A, C]⟩)
    (hu : 0 < u.numel) (a : Fin A) (c : Fin C) :
    Host.reduce (FloatOps.maximumf (F := Ideal) (φ := .f32)) x init h' hu (ix2 a c)
      = (Finset.univ : Finset (Fin B)).fold max (init (Shape.Idx.first hu)) (fun b => x (ix3 a b c)) := by
  refine (Host.reduce_eq_fold_single _ x init h' h hu (ix2 a c)).trans ?_
  have e : (x ∘ h.lift (ix2 a c)) = fun b => x (ix3 a b c) := funext fun b => congrArg x (lift_mid h a c b)
  rw [e]
  rfl

end Cert.LibMax3

end
-- ==== Proof.RefRow.lean ====
/-
  The reference's result read at an index, at the exact instance: at (b, d) it is the maximum over k, from minus
  infinity, of the softmax row entry in the reference's arrangement (`GumbelRow.softmax`) of batch b's logits and
  the k-th row of batch b's uniform draws.

  The stages: the noisy logit at (b, k, d) is (−log (−log u(b, k, d)) + l(b, d)) / (1/2); the shift at (b, k) is the
  maximum of minus infinity and the maximum over d of the noisy logits; the entry at (b, k, d) is the exponential of
  the shifted logit over zero plus the sum over d of those exponentials; the result at (b, d) is the maximum over k.
-/
import proofs.«116456_g50568944943757_cont_8to1c4_257_25_alg».proof.Proof.Gen.ReferenceIdeal.Read
import proofs.«116456_g50568944943757_cont_8to1c4_257_25_alg».proof.Proof.LibMax3
import proofs.«116456_g50568944943757_cont_8to1c4_257_25_alg».proof.Proof.RowSpec

noncomputable section

namespace Cert.ReferenceIdeal.Rows

open Cert.ReferenceIdeal Cert.ReferenceIdeal.Gen Cert.ReferenceIdeal.Read Idealize.ShloMosaic Idealize.ShloMosaic.ValueIdx
open Cert.LibMax3

variable (x0 : (⟨S32x8192, .f32⟩ : BufTy).Contents (Elt Ideal)) (x1 : (⟨S32x64x8192, .f32⟩ : BufTy).Contents (Elt Ideal))

/-- Batch b's logits and the k-th row of batch b's draws, as functions of the position d. -/
abbrev logitsAt (b : Fin 32) : Fin 8192 → EReal := fun d => x0 (ix2 b d)
abbrev drawsAt (b : Fin 32) (k : Fin 64) : Fin 8192 → EReal := fun d => x1 (ix3 b k d)

theorem idx5 (b : Fin 32) (k : Fin 64) (d : Fin 8192) : idx_main_v5 (ix3 b k d) = ix3 b (0 : Fin 1) d :=
  funext fun a => Fin.ext (by match a with | ⟨0, _⟩ => rfl | ⟨1, _⟩ => rfl | ⟨2, _⟩ => rfl)
theorem idx0 (b : Fin 32) (d : Fin 8192) : idx_main_v0 (ix3 b (0 : Fin 1) d) = ix2 b d :=
  funext fun a => Fin.ext (by match a with | ⟨0, _⟩ => rfl | ⟨1, _⟩ => rfl)
theorem idx13 (b : Fin 32) (k : Fin 64) (d : Fin 8192) : idx_main_v13 (ix3 b k d) = ix3 b k (0 : Fin 1) :=
  funext fun a => Fin.ext (by match a with | ⟨0, _⟩ => rfl | ⟨1, _⟩ => rfl | ⟨2, _⟩ => rfl)
theorem idx12 (b : Fin 32) (k : Fin 64) : idx_main_v12 (ix3 b k (0 : Fin 1)) = ix2 b k :=
  funext fun a => Fin.ext (by match a with | ⟨0, _⟩ => rfl | ⟨1, _⟩ => rfl)
theorem idx18 (b : Fin 32) (k : Fin 64) (d : Fin 8192) : idx_main_v18 (ix3 b k d) = ix3 b k (0 : Fin 1) :=
  funext fun a => Fin.ext (by match a with | ⟨0, _⟩ => rfl | ⟨1, _⟩ => rfl | ⟨2, _⟩ => rfl)
theorem idx17 (b : Fin 32) (k : Fin 64) : idx_main_v17 (ix3 b k (0 : Fin 1)) = ix2 b k :=
  funext fun a => Fin.ext (by match a with | ⟨0, _⟩ => rfl | ⟨1, _⟩ => rfl)
theorem idx16 (b : Fin 32) (k : Fin 64) (d : Fin 8192) : idx_main_v16 (ix2 b k) d = ix3 b k d :=
  funext fun a => Fin.ext (by match a with | ⟨0, _⟩ => rfl | ⟨1, _⟩ => rfl | ⟨2, _⟩ => rfl)

/-- The noisy logit at (b, k, d). -/
theorem noisy_apply (b : Fin 32) (k : Fin 64) (d : Fin 8192) :
    val_main_v8 (F := Ideal) x0 x1 (ix3 b k d) = GumbelRow.noisy (logitsAt x0 b) (drawsAt x1 b k) d := by
  rw [val_main_v8_apply, val_main_v6_apply, val_main_v5_apply, val_main_v0_apply, val_main_v7_apply, idx5, idx0]
  rfl

/-- The shift at (b, k). -/
theorem shift_apply (b : Fin 32) (k : Fin 64) :
    val_main_v11 (F := Ideal) x0 x1 (ix2 b k) = GumbelRow.shift (logitsAt x0 b) (drawsAt x1 b k) := by
  rw [val_main_v11_apply, val_main_v10_apply]
  unfold val_main_v9 GumbelRow.shift
  rw [hostMaxLast_apply (val_main_v8 (F := Ideal) x0 x1) (val_main_cst_0 (F := Ideal)) reducesTo_S32x64x8192_S32x64_d2 (by decide) h_S_ b k]
  have e : (fun d => val_main_v8 (F := Ideal) x0 x1 (ix3 b k d)) = GumbelRow.noisy (logitsAt x0 b) (drawsAt x1 b k) :=
    funext fun d => noisy_apply x0 x1 b k d
  rw [e]
  rfl

/-- The shifted exponential at (b, k, d). -/
theorem exp_apply (b : Fin 32) (k : Fin 64) (d : Fin 8192) :
    val_main_v15 (F := Ideal) x0 x1 (ix3 b k d)
      = Ideal.exp (GumbelRow.noisy (logitsAt x0 b) (drawsAt x1 b k) d - GumbelRow.shift (logitsAt x0 b) (drawsAt x1 b k)) := by
  rw [val_main_v15_apply, val_main_v14_apply, val_main_v13_apply, val_main_v12_apply, idx13, idx12, noisy_apply, shift_apply]
  rfl

/-- The softmax entry at (b, k, d). -/
theorem softmax_apply (b : Fin 32) (k : Fin 64) (d : Fin 8192) :
    val_main_v19 (F := Ideal) x0 x1 (ix3 b k d) = GumbelRow.softmax (logitsAt x0 b) (drawsAt x1 b k) d := by
  rw [val_main_v19_apply, val_main_v18_apply, val_main_v17_apply, idx18, idx17, val_main_v16_apply, exp_apply]
  unfold GumbelRow.softmax
  have e : ∀ d', val_main_v15 (F := Ideal) x0 x1 (idx_main_v16 (ix2 b k) d')
      = Ideal.exp (GumbelRow.noisy (logitsAt x0 b) (drawsAt x1 b k) d' - GumbelRow.shift (logitsAt x0 b) (drawsAt x1 b k)) :=
    fun d' => by rw [idx16]; exact exp_apply x0 x1 b k d'
  rw [Finset.sum_congr rfl fun d' _ => e d']
  rfl

/-- The result at (b, d). -/
theorem result_apply (b : Fin 32) (d : Fin 8192) :
    val_main_v20 (F := Ideal) x0 x1 (ix2 b d)
      = (Finset.univ : Finset (Fin 64)).fold max (Ideal.ofBits .f32 0xFF800000#32)
          (fun k => GumbelRow.softmax (logitsAt x0 b) (drawsAt x1 b k) d) := by
  unfold val_main_v20
  rw [hostMaxMid_apply (val_main_v19 (F := Ideal) x0 x1) (val_main_cst_3 (F := Ideal)) reducesTo_S32x64x8192_S32x8192_d1 (by decide) h_S_ b d]
  have e : (fun k => val_main_v19 (F := Ideal) x0 x1 (ix3 b k d)) = fun k => GumbelRow.softmax (logitsAt x0 b) (drawsAt x1 b k) d :=
    funext fun k => softmax_apply x0 x1 b k d
  rw [e]
  rfl

end Cert.ReferenceIdeal.Rows

end
-- ==== Proof.RowLaw.lean ====
/-
  The algebraic law for one row of the Gumbel-softmax on the extended reals: for real logits and uniform
  draws strictly between 0 and 1, the reference's arrangement (shifted exponentials of the noisy logits over
  their sum) and the kernel's arrangement (weights times the reciprocal of their sum) are the same number.
-/
import proofs.«116456_g50568944943757_cont_8to1c4_257_25_alg».proof.Proof.RowSpec
import Mathlib.Analysis.SpecialFunctions.Log.Basic
import Mathlib.Data.Finset.Fold

noncomputable section

namespace Cert.GumbelRow

open Idealize.ShloMosaic

/-! ### The five float literals as extended reals -/

/-- `1.0` denotes `1`. -/
theorem ofBits_one : Ideal.ofBits .f32 0x3F800000#32 = ((1 : ℝ) : EReal) := by
  simp [Ideal.ofBits, Ideal.ieee, -EReal.coe_mul]; norm_num

/-- `2.0` denotes `2`. -/
theorem ofBits_two : Ideal.ofBits .f32 0x40000000#32 = ((2 : ℝ) : EReal) := by
  simp [Ideal.ofBits, Ideal.ieee, -EReal.coe_mul]; norm_num

/-- `0.5` denotes `1/2`. -/
theorem ofBits_half : Ideal.ofBits .f32 0x3F000000#32 = ((1 / 2 : ℝ) : EReal) := by
  simp [Ideal.ofBits, Ideal.ieee, -EReal.coe_mul]; norm_num

/-- `+0.0` denotes `0`. -/
theorem ofBits_zero : Ideal.ofBits .f32 0x00000000#32 = 0 := by
  simp [Ideal.ofBits, Ideal.ieee]

/-- The pattern of `−∞` denotes the bottom element. -/
theorem ofBits_neg_inf : Ideal.ofBits .f32 0xFF800000#32 = ⊥ := by
  simp [Ideal.ofBits, Ideal.ieee]

variable {ι : Type} [Fintype ι]

/-! ### The real numbers behind one row -/

/-- The real noisy logit `(−log (−log υ) + λ) · (1 / (1/2))`. -/
def nu (lam ups : ι → ℝ) (d : ι) : ℝ :=
  (-(Real.log (-(Real.log (ups d)))) + lam d) * (1 / (1 / 2))

/-- The real weight `1 · (1 / (log υ · log υ)) · exp (2 λ)`. -/
def wt (lam ups : ι → ℝ) (d : ι) : ℝ :=
  1 * (1 / (Real.log (ups d) * Real.log (ups d))) * Real.exp (2 * lam d)

/-- A finite sum of coerced reals is the coercion of the real sum. -/
theorem coe_sum (f : ι → ℝ) (s : Finset ι) :
    ∑ d ∈ s, ((f d : ℝ) : EReal) = ((∑ d ∈ s, f d : ℝ) : EReal) := by
  classical
  induction s using Finset.induction_on with
  | empty => simp
  | insert a s ha ih => rw [Finset.sum_insert ha, Finset.sum_insert ha, ih, EReal.coe_add]

/-- For a draw strictly between 0 and 1 the noisy logit is the real `nu`: `log υ` is a negative real,
    so `−log υ` is a positive real and its logarithm is a real again. -/
theorem noisy_coe (lam ups : ι → ℝ) (hu : ∀ d, 0 < ups d ∧ ups d < 1) (d : ι) :
    noisy (fun d => (lam d : EReal)) (fun d => (ups d : EReal)) d = ((nu lam ups d : ℝ) : EReal) := by
  have h0 : 0 < ups d := (hu d).1
  have hlog : Real.log (ups d) < 0 := Real.log_neg h0 (hu d).2
  have hpos : 0 < -(Real.log (ups d)) := neg_pos.mpr hlog
  simp only [noisy, nu]
  rw [ofBits_half, Ideal.div_coe (by norm_num), Ideal.log_coe, if_neg (not_le.mpr h0), ← EReal.coe_neg,
    Ideal.log_coe, if_neg (not_le.mpr hpos), ← EReal.coe_neg, ← EReal.coe_add, ← EReal.coe_mul]

/-- For a draw strictly between 0 and 1 the weight is the real `wt`: `log υ` is a nonzero real. -/
theorem weight_coe (lam ups : ι → ℝ) (hu : ∀ d, 0 < ups d ∧ ups d < 1) (d : ι) :
    weight (fun d => (lam d : EReal)) (fun d => (ups d : EReal)) d = ((wt lam ups d : ℝ) : EReal) := by
  have h0 : 0 < ups d := (hu d).1
  have hlog : Real.log (ups d) < 0 := Real.log_neg h0 (hu d).2
  have hne : Real.log (ups d) * Real.log (ups d) ≠ 0 := mul_self_ne_zero.mpr hlog.ne
  simp only [weight, wt]
  rw [ofBits_one, ofBits_two, Ideal.log_coe, if_neg (not_le.mpr h0), ← EReal.coe_mul, Ideal.div_coe hne,
    ← EReal.coe_mul, ← EReal.coe_mul, Ideal.exp_coe, ← EReal.coe_mul]

/-- The weight is positive. -/
theorem wt_pos (lam ups : ι → ℝ) (hu : ∀ d, 0 < ups d ∧ ups d < 1) (d : ι) : 0 < wt lam ups d := by
  have hlog : Real.log (ups d) < 0 := Real.log_neg (hu d).1 (hu d).2
  have hsq : 0 < Real.log (ups d) * Real.log (ups d) := mul_pos_of_neg_of_neg hlog hlog
  unfold wt
  have := Real.exp_pos (2 * lam d)
  positivity

/-- The exponential of the noisy logit is the weight: `exp (−2 log x) = 1 / x²` at `x = −log υ > 0`. -/
theorem exp_nu (lam ups : ι → ℝ) (hu : ∀ d, 0 < ups d ∧ ups d < 1) (d : ι) :
    Real.exp (nu lam ups d) = wt lam ups d := by
  have hlog : Real.log (ups d) < 0 := Real.log_neg (hu d).1 (hu d).2
  have hpos : 0 < -(Real.log (ups d)) := neg_pos.mpr hlog
  have hx : Real.exp (Real.log (-(Real.log (ups d)))) = -(Real.log (ups d)) := Real.exp_log hpos
  have hsplit : nu lam ups d
      = 2 * lam d - (Real.log (-(Real.log (ups d))) + Real.log (-(Real.log (ups d)))) := by
    unfold nu; ring
  rw [hsplit, Real.exp_sub, Real.exp_add, hx]
  unfold wt
  have hne : Real.log (ups d) ≠ 0 := hlog.ne
  field_simp

/-- The shift of a nonempty finite family of reals is a real: the running maximum from `−∞` is below `+∞`
    because every member is, and above `−∞` because one member is. -/
theorem shift_coe [Nonempty ι] (f : ι → ℝ) :
    ∃ μ : ℝ, max (⊥ : EReal) (Finset.univ.fold max (⊥ : EReal) (fun d => ((f d : ℝ) : EReal))) = (μ : EReal) := by
  obtain ⟨d0⟩ := ‹Nonempty ι›
  have htop : Finset.univ.fold max (⊥ : EReal) (fun d => ((f d : ℝ) : EReal)) ≠ ⊤ :=
    ((Finset.fold_max_lt _).mpr ⟨bot_lt_top, fun d _ => EReal.coe_lt_top _⟩).ne
  have hbot : Finset.univ.fold max (⊥ : EReal) (fun d => ((f d : ℝ) : EReal)) ≠ ⊥ :=
    ((Finset.lt_fold_max _).mpr (Or.inr ⟨d0, Finset.mem_univ _, EReal.bot_lt_coe _⟩)).ne'
  exact ⟨_, by rw [max_eq_right bot_le, EReal.coe_toReal htop hbot]⟩

/-- The reference's row entry in real terms, for the real `μ` its shift is. -/
theorem softmax_coe [Nonempty ι] (lam ups : ι → ℝ) (hu : ∀ d, 0 < ups d ∧ ups d < 1) (d : ι) :
    ∃ μ : ℝ, softmax (fun d => (lam d : EReal)) (fun d => (ups d : EReal)) d
      = ((Real.exp (nu lam ups d - μ) * (1 / ∑ d', Real.exp (nu lam ups d' - μ)) : ℝ) : EReal) := by
  obtain ⟨μ, hμ⟩ := shift_coe (nu lam ups)
  refine ⟨μ, ?_⟩
  have hn : noisy (fun d => (lam d : EReal)) (fun d => (ups d : EReal))
      = fun d => ((nu lam ups d : ℝ) : EReal) := funext (noisy_coe lam ups hu)
  have hshift : shift (fun d => (lam d : EReal)) (fun d => (ups d : EReal)) = (μ : EReal) := by
    unfold shift
    rw [ofBits_neg_inf, hn]
    exact hμ
  have hden : (∑ d', Real.exp (nu lam ups d' - μ)) ≠ 0 :=
    (Finset.sum_pos (fun d' _ => Real.exp_pos _) Finset.univ_nonempty).ne'
  simp only [softmax]
  rw [hshift, ofBits_zero, zero_add, hn]
  simp only [← EReal.coe_sub, Ideal.exp_coe, coe_sum]
  rw [Ideal.div_coe hden, ← EReal.coe_mul]

/-- The kernel's row entry in real terms. -/
theorem ratio_coe [Nonempty ι] (lam ups : ι → ℝ) (hu : ∀ d, 0 < ups d ∧ ups d < 1) (d : ι) :
    ratio (fun d => (lam d : EReal)) (fun d => (ups d : EReal)) d
      = ((wt lam ups d * (1 * (1 / ∑ d', wt lam ups d')) : ℝ) : EReal) := by
  have hden : (∑ d', wt lam ups d') ≠ 0 :=
    (Finset.sum_pos (fun d' _ => wt_pos lam ups hu d') Finset.univ_nonempty).ne'
  simp only [ratio, weight_coe lam ups hu, coe_sum]
  rw [ofBits_one, Ideal.div_coe hden, ← EReal.coe_mul, ← EReal.coe_mul]

/-- The law for real-valued logits and draws: both entries are `w d / ∑ w`, the factor `exp (−μ)` cancelling
    between the shifted exponential and the sum of the shifted exponentials. -/
theorem softmax_eq_ratio_coe [Nonempty ι] (lam ups : ι → ℝ) (hu : ∀ d, 0 < ups d ∧ ups d < 1) (d : ι) :
    softmax (fun d => (lam d : EReal)) (fun d => (ups d : EReal)) d
      = ratio (fun d => (lam d : EReal)) (fun d => (ups d : EReal)) d := by
  obtain ⟨μ, hμ⟩ := softmax_coe lam ups hu d
  rw [hμ, ratio_coe lam ups hu d]
  congr 1
  have hsum : 0 < ∑ d', wt lam ups d' :=
    Finset.sum_pos (fun d' _ => wt_pos lam ups hu d') Finset.univ_nonempty
  have hexp : 0 < Real.exp μ := Real.exp_pos μ
  simp only [Real.exp_sub, exp_nu lam ups hu, ← Finset.sum_div]
  field_simp

/-- One row of the Gumbel-softmax: for real logits and draws strictly between 0 and 1 the reference's row entry
    is the kernel's. -/
theorem softmax_eq_ratio {ι : Type} [Fintype ι] [Nonempty ι] (l u : ι → EReal)
    (hl : ∀ d, ∃ r : ℝ, l d = (r : EReal))
    (hu : ∀ d, ∃ r : ℝ, u d = (r : EReal) ∧ 0 < r ∧ r < 1) (d : ι) :
    softmax l u d = ratio l u d := by
  choose lam hlam using hl
  choose ups hups using hu
  have hl' : l = fun d => (lam d : EReal) := funext hlam
  have hu' : u = fun d => (ups d : EReal) := funext fun d => (hups d).1
  rw [hl', hu']
  exact softmax_eq_ratio_coe lam ups (fun d => (hups d).2) d

end Cert.GumbelRow

end
-- ==== Proof.PreDomain.lean ====
/-
  The domain the precondition describes. The precondition is the conjunction of four tests, each taken over
  every entry of an input array: |x0| < +∞, |x1| < +∞, x1 > 0 and x1 < 1. Read over the extended reals, where an
  entry is a real number or one of the two infinities, it says that every entry of x0 is a real number and that
  every entry of x1 is a real number strictly between 0 and 1.
-/
import proofs.«116456_g50568944943757_cont_8to1c4_257_25_alg».proof.Pre_finite_inputs
import Idealize.ShloMosaic.PureOps.Ideal
import Idealize.ShloMosaic.Lib.ReduceAll
import Idealize.ShloMosaic.Lib.ValueIdx

namespace Cert.PreDomain
open Idealize.ShloMosaic

/-! ### The three constants the tests compare against -/

/-- Sign 0, exponent all ones, significand 0: the pattern of +∞. -/
theorem inf_f32 : Ideal.ofBits .f32 0x7F800000#32 = (⊤ : EReal) := by simp [Ideal.ofBits, Ideal.ieee]

/-- The all-zero pattern denotes 0. -/
theorem zero_f32 : Ideal.ofBits .f32 0x00000000#32 = (0 : EReal) := by simp [Ideal.ofBits, Ideal.ieee]

/-- Sign 0, biased exponent 127, significand 0: the pattern of 2^23 · 2^(127 - 127 - 23) = 1. -/
theorem one_f32 : Ideal.ofBits .f32 0x3F800000#32 = (1 : EReal) := by
  simp [Ideal.ofBits, Ideal.ieee, -EReal.coe_mul]; norm_num

/-! ### What one element test says -/

/-- An extended real whose absolute value max x (-x) is below +∞ is a real number: at +∞ the maximum is +∞
    itself, and at -∞ its negation is. -/
theorem real_of_abs_lt_top (x : EReal) (h : max x (-x) < ⊤) : ∃ r : ℝ, x = (r : EReal) := by
  induction x using EReal.rec with
  | bot => simp at h
  | coe r => exact ⟨r, rfl⟩
  | top => simp at h

/-- A one-bit word made from a truth value is 1 exactly when the truth value is true. -/
theorem ofBool_eq_one {b : Bool} : BitVec.ofBool b = 1#1 ↔ b = true := by cases b <;> decide

/-- The comparison "less than" answers 1 only where the order relation holds. -/
theorem lt_of_cmp_olt {x y : EReal} (h : Ideal.cmp .olt x y = 1#1) : x < y := by
  unfold Ideal.cmp at h
  exact of_decide_eq_true (ofBool_eq_one.1 h)

/-- The comparison "greater than" answers 1 only where the reversed order relation holds. -/
theorem lt_of_cmp_ogt {x y : EReal} (h : Ideal.cmp .ogt x y = 1#1) : y < x := by
  unfold Ideal.cmp at h
  exact of_decide_eq_true (ofBool_eq_one.1 h)

/-! ### The precondition, read -/

/-- If the precondition holds then every entry of x0 is a real number, and every entry of x1 is a real
    number r with 0 < r < 1. The conjunction is split into its four all-reductions; a reduction by "and"
    over every axis that answers 1 met a 1 at every index; and at an index each test compares the entry
    (or its absolute value) with a constant broadcast from a single value, so the comparison is against
    that constant. -/
theorem of_pre [Cert.Pre_finite_inputs.Facts]
    (x0 : FVec Ideal Cert.Pre_finite_inputs.S32x8192 .f32) (x1 : FVec Ideal Cert.Pre_finite_inputs.S32x64x8192 .f32)
    (h : Cert.Pre_finite_inputs.fn (F := Ideal) x0 x1 = fun _ => 1#1) :
    (∀ i, ∃ r : ℝ, x0 i = (r : EReal)) ∧ (∀ i, ∃ r : ℝ, x1 i = (r : EReal) ∧ 0 < r ∧ r < 1) := by
  -- a shape of rank 0 has exactly one index
  haveI : Subsingleton Cert.Pre_finite_inputs.S_.Idx := ⟨fun a b => funext fun d => d.elim0⟩
  have h0 := congrFun h ValueIdx.ix0
  dsimp only [Cert.Pre_finite_inputs.fn, Cert.Pre_finite_inputs.fn_part1] at h0
  -- ((t1 ∧ t2) ∧ t3) ∧ t4, each t an all-reduction
  obtain ⟨h123, h4⟩ := IntOp.andi_eq_one.1 h0
  obtain ⟨h12, h3⟩ := IntOp.andi_eq_one.1 h123
  obtain ⟨h1, h2⟩ := IntOp.andi_eq_one.1 h12
  -- |x0 i| < +∞
  have e1 : ∀ i, max (x0 i) (-(x0 i)) < ⊤ := fun i => by
    have e := Host.reduce_andi_all _ _ _ _ _ h1 i
    have e' : Ideal.cmp .olt (max (x0 i) (-(x0 i))) (Ideal.ofBits .f32 0x7F800000#32) = 1#1 := e
    rw [inf_f32] at e'
    exact lt_of_cmp_olt e'
  -- |x1 i| < +∞
  have e2 : ∀ i, max (x1 i) (-(x1 i)) < ⊤ := fun i => by
    have e := Host.reduce_andi_all _ _ _ _ _ h2 i
    have e' : Ideal.cmp .olt (max (x1 i) (-(x1 i))) (Ideal.ofBits .f32 0x7F800000#32) = 1#1 := e
    rw [inf_f32] at e'
    exact lt_of_cmp_olt e'
  -- 0 < x1 i
  have e3 : ∀ i, (0 : EReal) < x1 i := fun i => by
    have e := Host.reduce_andi_all _ _ _ _ _ h3 i
    have e' : Ideal.cmp .ogt (x1 i) (Ideal.ofBits .f32 0x00000000#32) = 1#1 := e
    rw [zero_f32] at e'
    exact lt_of_cmp_ogt e'
  -- x1 i < 1
  have e4 : ∀ i, x1 i < (1 : EReal) := fun i => by
    have e := Host.reduce_andi_all _ _ _ _ _ h4 i
    have e' : Ideal.cmp .olt (x1 i) (Ideal.ofBits .f32 0x3F800000#32) = 1#1 := e
    rw [one_f32] at e'
    exact lt_of_cmp_olt e'
  refine ⟨fun i => real_of_abs_lt_top _ (e1 i), fun i => ?_⟩
  obtain ⟨r, hr⟩ := real_of_abs_lt_top _ (e2 i)
  refine ⟨r, hr, ?_, ?_⟩
  · have := e3 i
    rw [hr] at this
    exact_mod_cast this
  · have := e4 i
    rw [hr] at this
    exact_mod_cast this

end Cert.PreDomain
-- ==== Proof.lean ====
/-
  The certificate of the Gumbel-softmax sampling kernel against its reference, over the extended reals.

  For logits l (32 batches of 8192) and uniform draws u (32 batches of 64 rows of 8192), both programs return, at
  (b, d), the largest over the 64 rows k of the softmax over d of the noisy logits (−log (−log u) + l) / (1/2).

  The reference computes the softmax the usual way: it subtracts the row's largest noisy logit, exponentiates, and
  divides by the row's sum of exponentials. The kernel uses exp (2 · (−log (−log u))) = 1 / (log u)²: its weights are
  w = (1 / (log u)²) · exp (2 l), and the softmax entry is w times the reciprocal of the row's sum of weights.

  The precondition says every logit is finite and every draw is a finite number strictly between 0 and 1 — the
  domain of the reference's two nested logarithms. There every quantity on both sides is a real number, the shift
  cancels between numerator and denominator, and the two row entries are the same real (`GumbelRow.softmax_eq_ratio`);
  the maxima over k of equal entries are equal. Outside that domain the two sides differ (a draw above 1 makes the
  reference's inner logarithm negative; an all-zero or all-one batch makes its quotient 0/0), which is why the
  domain is part of the statement.

  The kernel's side is read off its run: each grid point handles four batches, each batch row by the same operations
  (`Rows.rowOut`), the eight points' blocks tile the output array, and the reshapes before and after the region only
  insert and drop a unit axis (`Array.run`). The reference's side is its run read one operation at a time
  (`ReferenceIdeal.Rows.result_apply`). No rewrite was applied when the kernel was read over the extended reals, so
  there is nothing to preserve beyond the program's own text.
-/
import proofs.«116456_g50568944943757_cont_8to1c4_257_25_alg».proof.Defs
import proofs.«116456_g50568944943757_cont_8to1c4_257_25_alg».proof.Proof.Gen.Kernel
import proofs.«116456_g50568944943757_cont_8to1c4_257_25_alg».proof.Proof.Gen.Kernel.Skeleton
import proofs.«116456_g50568944943757_cont_8to1c4_257_25_alg».proof.Proof.Gen.Kernel.Launch
import proofs.«116456_g50568944943757_cont_8to1c4_257_25_alg».proof.Proof.Gen.Kernel.Points
import proofs.«116456_g50568944943757_cont_8to1c4_257_25_alg».proof.Proof.Gen.Kernel.Frame
import proofs.«116456_g50568944943757_cont_8to1c4_257_25_alg».proof.Proof.Gen.KernelIdeal
import proofs.«116456_g50568944943757_cont_8to1c4_257_25_alg».proof.Proof.Gen.KernelIdeal.Skeleton
import proofs.«116456_g50568944943757_cont_8to1c4_257_25_alg».proof.Proof.Gen.KernelIdeal.Launch
import proofs.«116456_g50568944943757_cont_8to1c4_257_25_alg».proof.Proof.Gen.KernelIdeal.Points
import proofs.«116456_g50568944943757_cont_8to1c4_257_25_alg».proof.Proof.Gen.KernelIdeal.Frame
import proofs.«116456_g50568944943757_cont_8to1c4_257_25_alg».proof.Proof.Gen.ReferenceIdeal
import proofs.«116456_g50568944943757_cont_8to1c4_257_25_alg».proof.Proof.Gen.Pre_finite_inputs
import proofs.«116456_g50568944943757_cont_8to1c4_257_25_alg».proof.Proof.RefRead
import proofs.«116456_g50568944943757_cont_8to1c4_257_25_alg».proof.Proof.KernelArray
import proofs.«116456_g50568944943757_cont_8to1c4_257_25_alg».proof.Proof.RefRow
import proofs.«116456_g50568944943757_cont_8to1c4_257_25_alg».proof.Proof.RowLaw
import proofs.«116456_g50568944943757_cont_8to1c4_257_25_alg».proof.Proof.PreDomain
import Idealize.ShloMosaic.Adequacy
import Idealize.ShloMosaic.Init

noncomputable section

namespace Cert.Proof

open Idealize.ShloMosaic Idealize.ShloMosaic.ValueIdx Idealize.SL.Sem

/-- Under the precondition the reference's result array and the kernel's are one function of the argument arrays:
    at (b, d) both are the maximum over k of row entries that agree row by row, every logit being real and every
    draw a real strictly between 0 and 1. -/
theorem results_agree (x0 : (⟨2, ![32, 8192]⟩ : Shape).Idx → EReal) (x1 : (⟨3, ![32, 64, 8192]⟩ : Shape).Idx → EReal)
    (h : Cert.Pre_finite_inputs.fn (F := Ideal) x0 x1 = fun _ => 1#1) :
    Cert.ReferenceIdeal.Read.val_main_v20 (F := Ideal) x0 x1 = Cert.KernelIdeal.Array.result x0 x1 := by
  obtain ⟨h0, h1⟩ := Cert.PreDomain.of_pre x0 x1 h
  haveI : Nonempty (Fin 8192) := ⟨⟨0, by decide⟩⟩
  funext i
  obtain ⟨b, d, rfl⟩ : ∃ (b : Fin 32) (d : Fin 8192), i = ix2 b d := ⟨i 0, i 1, eq_ix2 i⟩
  rw [Cert.ReferenceIdeal.Rows.result_apply, Cert.KernelIdeal.Array.result_apply]
  refine congrArg (fun f => Finset.fold max (Ideal.ofBits .f32 0xFF800000#32) f Finset.univ) (funext fun k => ?_)
  exact Cert.GumbelRow.softmax_eq_ratio _ _ (fun d' => h0 (ix2 b d')) (fun d' => h1 (ix3 b k d')) d

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The kernel's program read over the extended reals is its own text: no operation was rewritten. -/
theorem preserves : Cert.preserves_Kernel_KernelIdeal := trivial

/-- From memories agreeing on the arguments both programs end, the kernel's result array at the result function of
    the arguments and the reference's at its composed operations of them: one function under the precondition. -/
theorem algebraic : Cert.algebraic_KernelIdeal_ReferenceIdeal := by
  intro m ρ m' ρ' hpre hagree
  refine ⟨fun c => Cert.KernelIdeal.Array.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), Cert.KernelIdeal.Array.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, (hagree c).1, (hagree c).2]
  exact results_agree _ _ (hpre c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
